-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x2, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x2, .f32⟩
  | .hbm, ⟨74, _⟩ => ⟨S3300000x1, .f32⟩
  | .hbm, ⟨75, _⟩ => ⟨S3300000x2, .f32⟩
  | .hbm, ⟨76, _⟩ => ⟨S3300000x2, .f32⟩
  | .hbm, ⟨77, _⟩ => ⟨S_, .f32⟩
  | .hbm, ⟨78, _⟩ => ⟨S100000x2, .f32⟩
  | .hbm, ⟨79, _⟩ => ⟨S3300000x1, .i32⟩
  | .hbm, ⟨80, _⟩ => ⟨S100000x2, .f32⟩
  | .hbm, ⟨81, _⟩ => ⟨S1x2, .f32⟩
  | .hbm, ⟨82, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x2_S32x2_0_0 : ∀ a, (![0, 0] : Fin 2 → Nat) a + S32x2.size a ≤ S32x2.size a
  h_S32x2 : 0 < S32x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x2_S10000x2_1_0_0_1_n_n_wf : DotDims.WF S10000x32 S32x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S100000x2.size a
  hwx2_0 : ∀ i : grid2.Coords, EltTy.bits .f32 = 32 ∨ (Rect.block (s := S100000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x2, .f32⟩
  | .hbm, ⟨79, _⟩ => ⟨S3300000x1, .f32⟩
  | .hbm, ⟨80, _⟩ => ⟨S3300000x2, .f32⟩
  | .hbm, ⟨81, _⟩ => ⟨S3300000x2, .f32⟩
  | .hbm, ⟨82, _⟩ => ⟨S_, .f32⟩
  | .hbm, ⟨83, _⟩ => ⟨S100000x2, .f32⟩
  | .hbm, ⟨84, _⟩ => ⟨S3300000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x2_S100000x2_1_0_0_1_n_n_wf : DotDims.WF S100000x32 S32x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The idealized kernel's run with its result NAMED: every weakly fair execution of @main terminates, nothing
  faulting, with the result array at what the fold of buffer contents through @main's eight segments leaves
  there (three stretches of host operations, then each pallas_call followed or preceded by its stretch), and the
  argument arrays as launched.
-/
import proofs.«128216_j11991548690782_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main, read at the result array: it ends holding what the last segment boundary's contents have there. -/
theorem run_named : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibRegionOp.lean ====
/-
  General facts about a kernel region read as ONE host operation.

  A region's run leaves its arrays at what the write-backs make of them and every other buffer as it was. When
  the region has one output array, whose final contents are a function of the entry contents of the input
  arrays, and its input arrays end as entered, this is exactly what a single host operation computing that
  function into the output array leaves: `withArrays_eq_result`. A run of host operations interleaved with
  regions is then one fold of operations, and a buffer's contents after it are read operation by operation.

  Also: the value an operation with a LITERAL family of five or of seven operands leaves in its result, with
  each operand's contents named at its own reference (the library states this for four operands), and operations of
  five and of seven operands with a curried function, whose result is the function of the operands' contents.
-/
import Idealize.ShloMosaic.Lib.StableHlo.Run
import Idealize.ShloMosaic.Lib.Pipeline.FrameSuffix
import Idealize.ShloMosaic.Lib.Pipeline.Value

noncomputable section

namespace Cert.Lib.RegionOp

open Idealize.ShloMosaic Idealize.ShloMosaic.TcCoe

variable {nD : Nat} {τ : Topo} {sig : RefSig} {Val : EltTy → Type}

/-- The contents a region leaves — its arrays at `A`, every other buffer at `V` — are what an operation `op`
    writing only the output array leaves of `V`, when the output array ends at the operation's value and every
    other array of the region ends as entered. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ)))
    (op : HloOp τ sig Val) (wo : Fin W)
    (hw : op.writes = {Proc.devRef .tc (Pipeline.arrRef win wo)})
    (hout : A wo = op.result V (Proc.devRef .tc (Pipeline.arrRef win wo)))
    (hin : ∀ w, w ≠ wo → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = wo
    · subst hwo; exact hout
    · rw [hin w hwo, op.result_of_not_mem V (by
        rw [hw, Finset.mem_singleton]; exact fun e => hwo (hinj (Proc.devRef_injective _ e)))]
  · unfold Pipeline.withArrays
    rw [dif_neg h, op.result_of_not_mem V (by
      rw [hw, Finset.mem_singleton]; exact fun e => h ⟨wo, e.symm⟩)]

section Families

variable {x0 x1 x2 x3 x4 x5 x6 y : Ref sig .tc}

/-- The result of an operation on a literal family of five operands, each operand's contents at its own reference. -/
theorem nary5_result'
    (f : ((k : Fin 5) → ((![x0, x1, x2, x3, x4] : Fin 5 → Ref sig .tc) k).ty.Contents Val) → y.ty.Contents Val) (hxs hy)
    (F : Valuation τ sig Val) :
    (StableHlo.nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [StableHlo.nary_result']; congr 1; funext k; fin_cases k <;> rfl

/-- The result of an operation on a literal family of seven operands, each operand's contents at its own reference. -/
theorem nary7_result'
    (f : ((k : Fin 7) → ((![x0, x1, x2, x3, x4, x5, x6] : Fin 7 → Ref sig .tc) k).ty.Contents Val) → y.ty.Contents Val) (hxs hy)
    (F : Valuation τ sig Val) :
    (StableHlo.nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [StableHlo.nary_result']; congr 1; funext k; fin_cases k <;> rfl

end Families

section Curried

/-- An operation of 5 operands into `y`, its function curried: `y` takes `G` of the operands' contents. -/
def op5 (x0 x1 x2 x3 x4 y : Ref sig .tc) (G : x0.ty.Contents Val → x1.ty.Contents Val → x2.ty.Contents Val → x3.ty.Contents Val → x4.ty.Contents Val → y.ty.Contents Val)
    (hxs : ∀ k, ((![x0, x1, x2, x3, x4] : Fin 5 → Ref sig .tc) k).space ≠ .host ∧ (((![x0, x1, x2, x3, x4] : Fin 5 → Ref sig .tc) k : Ref sig .tc) : DevRef τ sig).isScoped = false)
    (hy : y.space ≠ .host ∧ (y : DevRef τ sig).isScoped = false) : HloOp τ sig Val :=
  StableHlo.nary ![x0, x1, x2, x3, x4] y (fun u => G (u 0) (u 1) (u 2) (u 3) (u 4)) hxs hy

/-- What it leaves in its result: `G` of the operands' contents, each at its own reference. -/
theorem op5_result' (x0 x1 x2 x3 x4 y : Ref sig .tc) (G : x0.ty.Contents Val → x1.ty.Contents Val → x2.ty.Contents Val → x3.ty.Contents Val → x4.ty.Contents Val → y.ty.Contents Val) (hxs) (hy) (F : Valuation τ sig Val) :
    (op5 (τ := τ) x0 x1 x2 x3 x4 y G hxs hy).result F (no_index (Proc.devRef .tc y)) = G (F (Proc.devRef .tc x0)) (F (Proc.devRef .tc x1)) (F (Proc.devRef .tc x2)) (F (Proc.devRef .tc x3)) (F (Proc.devRef .tc x4)) := by
  unfold op5
  rw [StableHlo.nary_result']
  rfl

/-- Every other buffer it leaves alone. -/
theorem op5_result_ne' (x0 x1 x2 x3 x4 y : Ref sig .tc) (G : x0.ty.Contents Val → x1.ty.Contents Val → x2.ty.Contents Val → x3.ty.Contents Val → x4.ty.Contents Val → y.ty.Contents Val) (hxs) (hy) (F : Valuation τ sig Val)
    {r : Ref sig .tc} (h : r ≠ y) :
    (op5 (τ := τ) x0 x1 x2 x3 x4 y G hxs hy).result F (no_index (Proc.devRef .tc r)) = F (Proc.devRef .tc r) := by
  unfold op5
  exact StableHlo.nary_result_ne' _ _ _ _ _ h

/-- It writes its result buffer only. -/
theorem op5_writes (x0 x1 x2 x3 x4 y : Ref sig .tc) (G : x0.ty.Contents Val → x1.ty.Contents Val → x2.ty.Contents Val → x3.ty.Contents Val → x4.ty.Contents Val → y.ty.Contents Val) (hxs) (hy) :
    (op5 (τ := τ) x0 x1 x2 x3 x4 y G hxs hy).writes = {Proc.devRef .tc y} := rfl

/-- An operation of 7 operands into `y`, its function curried: `y` takes `G` of the operands' contents. -/
def op7 (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val)
    (hxs : ∀ k, ((![x0, x1, x2, x3, x4, x5, x6] : Fin 7 → Ref sig .tc) k).space ≠ .host ∧ (((![x0, x1, x2, x3, x4, x5, x6] : Fin 7 → Ref sig .tc) k : Ref sig .tc) : DevRef τ sig).isScoped = false)
    (hy : y.space ≠ .host ∧ (y : DevRef τ sig).isScoped = false) : HloOp τ sig Val :=
  StableHlo.nary ![x0, x1, x2, x3, x4, x5, x6] y (fun u => G (u 0) (u 1) (u 2) (u 3) (u 4) (u 5) (u 6)) hxs hy

/-- What it leaves in its result: `G` of the operands' contents, each at its own reference. -/
theorem op7_result' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val) :
    (op7 (τ := τ) x0 x1 x2 x3 x4 x5 x6 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) (F (Proc.devRef .tc x6)) := by
  unfold op7
  rw [StableHlo.nary_result']
  rfl

/-- Every other buffer it leaves alone. -/
theorem op7_result_ne' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val)
    {r : Ref sig .tc} (h : r ≠ y) :
    (op7 (τ := τ) x0 x1 x2 x3 x4 x5 x6 y G hxs hy).result F (no_index (Proc.devRef .tc r)) = F (Proc.devRef .tc r) := by
  unfold op7
  exact StableHlo.nary_result_ne' _ _ _ _ _ h

/-- It writes its result buffer only. -/
theorem op7_writes (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) :
    (op7 (τ := τ) x0 x1 x2 x3 x4 x5 x6 y G hxs hy).writes = {Proc.devRef .tc y} := rfl

end Curried

end Cert.Lib.RegionOp

end
-- ==== Proof.LayerFns.lean ====
/-
  The three dense stages of the two-layer graph network as whole-array functions, written with the reference
  program's own operations and shapes:

  * `lin1 x w`            — the first layer's linear map, the matrix product x · w  (100000×128 by 128×32);
  * `reluLin2 a b w`      — the rectifier of the aggregated first layer plus its bias row, max(a + b, 0), then the
                            second layer's linear map, the product with w  (100000×32 by 32×2);
  * `biasLogSoftmax a b`  — the aggregated second layer plus its bias row, x = a + b, then the row-wise log-softmax
                            x − max_j x − log Σ_j exp(x − max_j x)  over the two classes.

  The bias enters each stage as a 1×n row, broadcast along the 100000 rows.
-/
import proofs.«128216_j11991548690782_1_alg».proof.ReferenceIdeal
import proofs.«128216_j11991548690782_1_alg».proof.Proof.Gen.ReferenceIdeal

noncomputable section

namespace Cert.Layers

open Idealize.ShloMosaic Cert.ReferenceIdeal Cert.ReferenceIdeal.Facts₀

variable {F : FTy → Type} [FloatOps F]

/-- The first layer's linear map: the product of the node features with the first weight matrix. -/
def lin1 (x : FVec F S100000x128 .f32) (w : FVec F S128x32 .f32) : FVec F S100000x32 .f32 :=
  Host.dotGeneral dot_S100000x128_S128x32_S100000x32_1_0_0_1_n_n none x w

/-- The hidden activations: the aggregate plus the bias row, rectified. -/
def hidden (a : FVec F S100000x32 .f32) (b : FVec F S1x32 .f32) : FVec F S100000x32 .f32 :=
  maximumf (addf a (broadcastInDim S100000x32 ![0, 1] bcast_S1x32_S100000x32_0_1 b))
    (broadcastInDim S100000x32 ![] bcast_S_S100000x32 (constant S_ .f32 0x00000000#32))

/-- The second layer's linear map of the hidden activations. -/
def reluLin2 (a : FVec F S100000x32 .f32) (b : FVec F S1x32 .f32) (w : FVec F S32x2 .f32) : FVec F S100000x2 .f32 :=
  Host.dotGeneral dot_S100000x32_S32x2_S100000x2_1_0_0_1_n_n none (hidden a b) w

/-- The logits: the aggregate plus the bias row. -/
def logits (a : FVec F S100000x2 .f32) (b : FVec F S1x2 .f32) : FVec F S100000x2 .f32 :=
  addf a (broadcastInDim S100000x2 ![0, 1] bcast_S1x2_S100000x2_0_1 b)

/-- Each row's maximum over the two classes (the maximum with −∞ changes nothing). -/
def rowMax (x : FVec F S100000x2 .f32) : FVec F S100000 .f32 :=
  maximumf (broadcastInDim S100000 ![] bcast_S_S100000 (constant S_ .f32 0xFF800000#32))
    (Host.reduce FloatOps.maximumf x (constant S_ .f32 0xFF800000#32) reducesTo_S100000x2_S100000_d1 h_S_)

/-- The logits less their row's maximum. -/
def shifted (x : FVec F S100000x2 .f32) : FVec F S100000x2 .f32 :=
  subf x (broadcastInDim S100000x2 ![0, 1] bcast_S100000x1_S100000x2_0_1
    (broadcastInDim S100000x1 ![0] bcast_S100000_S100000x1_0 (rowMax x)))

/-- The row-wise log-softmax: the shifted logits less the logarithm of the row's sum of their exponentials. -/
def logSoftmax (x : FVec F S100000x2 .f32) : FVec F S100000x2 .f32 :=
  subf (shifted x) (broadcastInDim S100000x2 ![0, 1] bcast_S100000x1_S100000x2_0_1
    (Host.log (broadcastInDim S100000x1 ![0] bcast_S100000_S100000x1_0
      (Host.reduceAdd (Host.exp (shifted x)) (constant S_ .f32 0x00000000#32) reducesTo_S100000x2_S100000_d1 h_S_))))

/-- The output stage: bias, then log-softmax. -/
def biasLogSoftmax (a : FVec F S100000x2 .f32) (b : FVec F S1x2 .f32) : FVec F S100000x2 .f32 :=
  logSoftmax (logits a b)

end Cert.Layers

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.Region0.lean ====
/-
  The first pallas_call as ONE whole-array function: from any contents `V` of the TensorCore's buffers at its entry, its
  result array ends holding the matrix product of the feature array with the first weight matrix.

  Grid point t multiplies rows 10000·t … 10000·t + 9999 of the features (its block of the first window) by the whole
  weight matrix (the second window's one block) and writes the product to the same rows of the result; entry (r, q) of a
  product depends on row r of the left factor only, so the ten row blocks written back are the ten row blocks of the
  whole product, and they cover the array.
-/
import proofs.«128216_j11991548690782_1_alg».proof.Proof.Gen.KernelIdeal.Frame
import proofs.«128216_j11991548690782_1_alg».proof.Proof.LayerFns
import proofs.«128216_j11991548690782_1_alg».proof.Proof.LibPlainDot
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- A block's product at entry (p, q): the sum over k of the left block at (p, k) times the right block at (k, q). -/
theorem pay_apply (x0 : Vec Ideal S10000x128 .f32) (x1 : Vec Ideal S128x32 .f32) (p : Fin 10000) (q : Fin 32) :
    k0_pay1 (F := Ideal) x0 x1 (ix2 p q) = ∑ k : Fin 128, x0 (ix2 p k) * x1 (ix2 k q) := by
  unfold k0_pay1
  exact Cert.Lib.PlainDot.matmul_zero_apply (M := 10000) (K := 128) (N := 32) none x0 x1 p q

/-- The whole product at entry (r, q). -/
theorem lin1_apply (x : FVec Ideal S100000x128 .f32) (w : FVec Ideal S128x32 .f32) (r : Fin 100000) (q : Fin 32) :
    Cert.Layers.lin1 (F := Ideal) x w (ix2 r q) = ∑ k : Fin 128, x (ix2 r k) * w (ix2 k q) := by
  unfold Cert.Layers.lin1
  simp only [Host.dotGeneral]
  exact Cert.Lib.PlainDot.dotGeneral_apply (M := 100000) (K := 128) (N := 32) none _ x w r q

/-- A row block of the product is the product of the row block: when the left block `x0` holds rows
    `b·10000 …` of `x` and the right block is `w`, entry `j` of the blocks' product is entry `i` of the whole product, for
    `i` the entry `j` of row block `b`. -/
theorem block_entry (x : FVec Ideal S100000x128 .f32) (w : FVec Ideal S128x32 .f32)
    (x0 : Vec Ideal S10000x128 .f32) (x1 : Vec Ideal S128x32 .f32) (b : Nat)
    (h0 : ∀ (y : S10000x128.Idx) (i' : S100000x128.Idx), (i' 0).val = b * 10000 + (y 0).val → (i' 1).val = (y 1).val → x0 y = x i')
    (h1 : x1 = w) (j : S10000x32.Idx) (i : S100000x32.Idx)
    (hi0 : (i 0).val = b * 10000 + (j 0).val) (hi1 : (i 1).val = (j 1).val) :
    k0_pay1 (F := Ideal) x0 x1 j = Cert.Layers.lin1 (F := Ideal) x w i := by
  obtain ⟨p, q, rfl⟩ : ∃ (p : Fin 10000) (q : Fin 32), j = ix2 p q := ⟨j 0, j 1, eq_ix2 j⟩
  obtain ⟨r, s, rfl⟩ : ∃ (r : Fin 100000) (s : Fin 32), i = ix2 r s := ⟨i 0, i 1, eq_ix2 i⟩
  have hs : s = q := Fin.ext hi1
  subst hs h1
  rw [pay_apply, lin1_apply]
  refine Finset.sum_congr rfl fun k _ => ?_
  rw [h0 (ix2 p k) (ix2 r k) hi0 rfl]

variable (V : (c : Dev nD) → (b : Ref sig .tc) → Buf (Elt Ideal) ((c : Thread nD τ).loc b))

/-- The printed index maps over the grid: the feature window and the result window are at row block `t`, column block 0;
    the weight window at block (0, 0). -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the arrays as the region finds them. -/
theorem flushed_eq (c : Dev nD) (t : Fin cfg0.N) :
    (dat0 (F := Ideal) V c).flushed 2 t
      = ((cfg0.win 2).blk t).view.read (Elt Ideal) (Cert.Layers.lin1 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts t
  funext j
  show k0_pay1 (F := Ideal) (iblk0 V c 0 t) (iblk0 V c 1 t) j
    = Cert.Layers.lin1 (F := Ideal) (V c main_arg0) (V c main_arg2) (((cfg0.win 2).blk t).view.emb j)
  refine block_entry (V c main_arg0) (V c main_arg2) (iblk0 V c 0 t) (iblk0 V c 1 t) (win0_2.index t (0 : Fin 2)) ?_ ?_ j _ ?_ ?_
  · intro y i' h0 h1
    show V c main_arg0 (((cfg0.win 0).blk t).view.emb y) = V c main_arg0 i'
    congr 1
    funext a; apply Fin.ext
    match a with
    | ⟨0, _⟩ => show win0_0.index t (0 : Fin 2) * 10000 + 1 * (y 0).val = (i' 0).val; omega
    | ⟨1, _⟩ => show win0_0.index t (1 : Fin 2) * 128 + 1 * (y 1).val = (i' 1).val; omega
  · funext y
    show V c main_arg2 (((cfg0.win 1).blk t).view.emb y) = V c main_arg2 y
    congr 1
    funext a; apply Fin.ext
    match a with
    | ⟨0, _⟩ => show win0_1.index t (0 : Fin 2) * 128 + 1 * (y 0).val = (y 0).val; omega
    | ⟨1, _⟩ => show win0_1.index t (1 : Fin 2) * 32 + 1 * (y 1).val = (y 1).val; omega
  · show win0_2.index t (0 : Fin 2) * 10000 + 1 * (j 0).val = win0_2.index t (0 : Fin 2) * 10000 + (j 0).val; omega
  · show win0_2.index t (1 : Fin 2) * 32 + 1 * (j 1).val = (j 1).val; omega

/-- An index of the result array is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Row r of the result is in the block of the point at row block r / 10000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- THE RESULT ARRAY after the region: the whole product of the feature array and the weight array it was entered with. -/
theorem value (c : Dev nD) :
    (dat0 (F := Ideal) V c).arrAt 2 cfg0.N = Cert.Layers.lin1 (F := Ideal) (V c main_arg0) (V c main_arg2) :=
  (dat0 (F := Ideal) V c).arrAt_eq_of_cover 2 _ (fun t _ => flushed_eq V c t) cover

end Cert.KernelIdeal.Region0

end
-- ==== Proof.Region1.lean ====
/-
  The second pallas_call as ONE whole-array function: from any contents `V` of the TensorCore's buffers at its entry, its
  result array ends holding the second layer's linear map of the hidden activations max(a + b, 0), for `a` the aggregated
  first layer (first window's array), `b` the 1×32 bias row (second window) and `w` the second weight matrix (third).

  Grid point t rectifies rows 10000·t … 10000·t + 9999 of a + b and multiplies them by the whole weight matrix; the hidden
  activation at (r, k) depends on a at (r, k) and on b at (0, k) only, and entry (r, q) of a product on row r of the left
  factor only, so the ten row blocks written back are the ten row blocks of the whole result, and they cover the array.
-/
import proofs.«128216_j11991548690782_1_alg».proof.Proof.Gen.KernelIdeal.Frame
import proofs.«128216_j11991548690782_1_alg».proof.Proof.LayerFns
import proofs.«128216_j11991548690782_1_alg».proof.Proof.LibPlainDot
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The block's hidden activations at (p, k): the maximum of the block at (p, k) plus the bias row at (0, k), and zero. -/
theorem blockHidden_apply (x0 : Vec Ideal S10000x32 .f32) (x1 : Vec Ideal S1x32 .f32) (p : Fin 10000) (k : Fin 32) :
    maximumf (F := Ideal) (addf (shapeCast S10000x32 x0 Facts₀.shapeCasts_S10000x32_S10000x32)
        (broadcastTo S10000x32 (shapeCast S1x32 x1 Facts₀.shapeCasts_S1x32_S1x32) Facts₀.broadcasts_S1x32_S10000x32))
      (broadcast S10000x32 (Scalar.ofBits .f32 0x00000000#32)) (ix2 p k)
    = max (x0 (ix2 p k) + x1 (ix2 (0 : Fin 1) k)) (Ideal.ofBits .f32 0x00000000#32) := by
  rw [maximumf_apply, addf_apply, shapeCast_self, shapeCast_self, broadcast_apply,
    broadcastTo_apply x1 Facts₀.broadcasts_S1x32_S10000x32 (ix2 p k) (ix2 (0 : Fin 1) k) (fun a => by
      match a with
      | ⟨0, _⟩ => rfl
      | ⟨1, _⟩ => rfl)]
  rfl

/-- A block product into zero at entry (p, q), for operands read as bf16 (a change of format is the identity on the
    extended reals). -/
theorem matmul_entry (l : FVec Ideal S10000x32 .f32) (r : FVec Ideal S32x2 .f32) (p : Fin 10000) (q : Fin 2) :
    matmul dot_S10000x32_S32x2_S10000x2_1_0_0_1_n_n none (truncf .bf16 l Facts₀.bitsLt_bf16_f32) (truncf .bf16 r Facts₀.bitsLt_bf16_f32)
        (constant S10000x2 .f32 0x00000000#32) (ix2 p q)
      = ∑ k : Fin 32, l (ix2 p k) * r (ix2 k q) :=
  Cert.Lib.PlainDot.matmul_zero_apply (M := 10000) (K := 32) (N := 2) none l r p q

/-- The block's product at entry (p, q). -/
theorem pay_apply (x0 : Vec Ideal S10000x32 .f32) (x1 : Vec Ideal S1x32 .f32) (x2 : Vec Ideal S32x2 .f32) (p : Fin 10000) (q : Fin 2) :
    k1_pay1 (F := Ideal) x0 x1 x2 (ix2 p q)
      = ∑ k : Fin 32, max (x0 (ix2 p k) + x1 (ix2 (0 : Fin 1) k)) (Ideal.ofBits .f32 0x00000000#32) * x2 (ix2 k q) := by
  unfold k1_pay1
  refine (matmul_entry (maximumf (F := Ideal) (addf (shapeCast S10000x32 x0 Facts₀.shapeCasts_S10000x32_S10000x32)
      (broadcastTo S10000x32 (shapeCast S1x32 x1 Facts₀.shapeCasts_S1x32_S1x32) Facts₀.broadcasts_S1x32_S10000x32))
    (broadcast S10000x32 (Scalar.ofBits .f32 0x00000000#32))) x2 p q).trans ?_
  exact Finset.sum_congr rfl fun k _ => congrArg (· * x2 (ix2 k q)) (blockHidden_apply x0 x1 p k)

/-- The whole array's hidden activations at (r, k). -/
theorem hidden_apply (a : FVec Ideal S100000x32 .f32) (b : FVec Ideal S1x32 .f32) (r : Fin 100000) (k : Fin 32) :
    Cert.Layers.hidden (F := Ideal) a b (ix2 r k) = max (a (ix2 r k) + b (ix2 (0 : Fin 1) k)) (Ideal.ofBits .f32 0x00000000#32) := by
  unfold Cert.Layers.hidden
  rw [maximumf_apply, addf_apply,
    broadcastInDim_apply _ Cert.ReferenceIdeal.Facts₀.bcast_S1x32_S100000x32_0_1 b (ix2 r k) (ix2 (0 : Fin 1) k) (fun a => by
      match a with
      | ⟨0, _⟩ => rfl
      | ⟨1, _⟩ => rfl),
    broadcastInDim_apply _ Cert.ReferenceIdeal.Facts₀.bcast_S_S100000x32 (constant (F := Ideal) Cert.ReferenceIdeal.S_ .f32 0x00000000#32) (ix2 r k) (fun a => a.elim0) (fun a => a.elim0)]
  rfl

/-- The whole result at entry (r, q). -/
theorem reluLin2_apply (a : FVec Ideal S100000x32 .f32) (b : FVec Ideal S1x32 .f32) (w : FVec Ideal S32x2 .f32) (r : Fin 100000) (q : Fin 2) :
    Cert.Layers.reluLin2 (F := Ideal) a b w (ix2 r q)
      = ∑ k : Fin 32, max (a (ix2 r k) + b (ix2 (0 : Fin 1) k)) (Ideal.ofBits .f32 0x00000000#32) * w (ix2 k q) := by
  unfold Cert.Layers.reluLin2
  simp only [Host.dotGeneral]
  refine (Cert.Lib.PlainDot.dotGeneral_apply (M := 100000) (K := 32) (N := 2) none _ (Cert.Layers.hidden (F := Ideal) a b) w r q).trans ?_
  refine Finset.sum_congr rfl fun k _ => ?_
  exact congrArg (· * w (ix2 k q)) (hidden_apply a b r k)

/-- A row block of the result from the row block of the aggregate: when the block `x0` holds rows `β·10000 …` of `a`, and the
    bias and weight blocks are the whole arrays, entry `j` of the block's result is entry `i` of the whole result, for `i` the
    entry `j` of row block `β`. -/
theorem block_entry (a : FVec Ideal S100000x32 .f32) (b : FVec Ideal S1x32 .f32) (w : FVec Ideal S32x2 .f32)
    (x0 : Vec Ideal S10000x32 .f32) (x1 : Vec Ideal S1x32 .f32) (x2 : Vec Ideal S32x2 .f32) (β : Nat)
    (h0 : ∀ (y : S10000x32.Idx) (i' : S100000x32.Idx), (i' 0).val = β * 10000 + (y 0).val → (i' 1).val = (y 1).val → x0 y = a i')
    (h1 : x1 = b) (h2 : x2 = w) (j : S10000x2.Idx) (i : S100000x2.Idx)
    (hi0 : (i 0).val = β * 10000 + (j 0).val) (hi1 : (i 1).val = (j 1).val) :
    k1_pay1 (F := Ideal) x0 x1 x2 j = Cert.Layers.reluLin2 (F := Ideal) a b w i := by
  obtain ⟨p, q, rfl⟩ : ∃ (p : Fin 10000) (q : Fin 2), j = ix2 p q := ⟨j 0, j 1, eq_ix2 j⟩
  obtain ⟨r, s, rfl⟩ : ∃ (r : Fin 100000) (s : Fin 2), i = ix2 r s := ⟨i 0, i 1, eq_ix2 i⟩
  have hs : s = q := Fin.ext hi1
  subst hs h1 h2
  rw [pay_apply, reluLin2_apply]
  refine Finset.sum_congr rfl fun k _ => ?_
  rw [h0 (ix2 p k) (ix2 r k) hi0 rfl]

variable (V : (c : Dev nD) → (b : Ref sig .tc) → Buf (Elt Ideal) ((c : Thread nD τ).loc b))

/-- The printed index maps over the grid: the aggregate's window and the result window are at row block `t`, column block 0;
    the bias window and the weight window at block (0, 0). -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the whole result of the arrays as the region finds them. -/
theorem flushed_eq (c : Dev nD) (t : Fin cfg1.N) :
    (dat1 (F := Ideal) V c).flushed 3 t
      = ((cfg1.win 3).blk t).view.read (Elt Ideal) (Cert.Layers.reluLin2 (F := Ideal) (V c main_v43) (V c main_v44) (V c main_arg4)) := by
  show (cfg1.win 3).cut (grid1.coords t) ((dat1 (F := Ideal) V c).after 3 t) = _
  rw [after1_3]
  unfold out1_3
  rw [View.canon_unit_zero hz]
  simp only [View.ld_unit_zero (S := S10000x32) hz, View.ld_unit_zero (S := S1x32) hz, View.ld_unit_zero (S := S32x2) hz]
  obtain ⟨e0, e1, e2, e3, e4, e5, e6, e7⟩ := idx_facts t
  funext j
  show k1_pay1 (F := Ideal) (iblk1 V c 0 t) (iblk1 V c 1 t) (iblk1 V c 2 t) j
    = Cert.Layers.reluLin2 (F := Ideal) (V c main_v43) (V c main_v44) (V c main_arg4) (((cfg1.win 3).blk t).view.emb j)
  refine block_entry (V c main_v43) (V c main_v44) (V c main_arg4) (iblk1 V c 0 t) (iblk1 V c 1 t) (iblk1 V c 2 t)
    (win1_3.index t (0 : Fin 2)) ?_ ?_ ?_ j _ ?_ ?_
  · intro y i' h0 h1
    show V c main_v43 (((cfg1.win 0).blk t).view.emb y) = V c main_v43 i'
    congr 1
    funext a; apply Fin.ext
    match a with
    | ⟨0, _⟩ => show win1_0.index t (0 : Fin 2) * 10000 + 1 * (y 0).val = (i' 0).val; omega
    | ⟨1, _⟩ => show win1_0.index t (1 : Fin 2) * 32 + 1 * (y 1).val = (i' 1).val; omega
  · funext y
    show V c main_v44 (((cfg1.win 1).blk t).view.emb y) = V c main_v44 y
    congr 1
    funext a; apply Fin.ext
    match a with
    | ⟨0, _⟩ => show win1_1.index t (0 : Fin 2) * 1 + 1 * (y 0).val = (y 0).val; omega
    | ⟨1, _⟩ => show win1_1.index t (1 : Fin 2) * 32 + 1 * (y 1).val = (y 1).val; omega
  · funext y
    show V c main_arg4 (((cfg1.win 2).blk t).view.emb y) = V c main_arg4 y
    congr 1
    funext a; apply Fin.ext
    match a with
    | ⟨0, _⟩ => show win1_2.index t (0 : Fin 2) * 32 + 1 * (y 0).val = (y 0).val; omega
    | ⟨1, _⟩ => show win1_2.index t (1 : Fin 2) * 2 + 1 * (y 1).val = (y 1).val; omega
  · show win1_3.index t (0 : Fin 2) * 10000 + 1 * (j 0).val = win1_3.index t (0 : Fin 2) * 10000 + (j 0).val; omega
  · show win1_3.index t (1 : Fin 2) * 2 + 1 * (j 1).val = (j 1).val; omega

/-- An index of the result array is in point `t`'s block iff each coordinate is in the block's range on its axis. -/
theorem mem_blk (t : Fin cfg1.N) (i : S100000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v45).slice (win1_3.rect t)).set ↔ _
  rw [View.set_slice_whole, Rect.mem_set_unit]
  exact Iff.rfl

/-- Row r of the result is in the block of the point at row block r / 10000. -/
theorem cover (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 2 ≤ (i 1).val ∧ (i 1).val < win1_3.index t (1 : Fin 2) * 2 + 2; omega

/-- THE RESULT ARRAY after the region: the second layer's linear map of the hidden activations, of the arrays it was entered with. -/
theorem value (c : Dev nD) :
    (dat1 (F := Ideal) V c).arrAt 3 cfg1.N
      = Cert.Layers.reluLin2 (F := Ideal) (V c main_v43) (V c main_v44) (V c main_arg4) :=
  (dat1 (F := Ideal) V c).arrAt_eq_of_cover 3 _ (fun t _ => flushed_eq V c t) cover

end Cert.KernelIdeal.Region1

end
-- ==== Proof.Region2.lean ====
/-
  The third pallas_call as ONE whole-array function: from any contents `V` of the TensorCore's buffers at its entry, its
  result array ends holding the row-wise log-softmax of the logits a + b, for `a` the aggregated second layer (first
  window's array) and `b` the 1×2 bias row (second window).

  Both sides are the same function of ONE ROW of logits f : {0, 1} → extended reals,
      f q − top f − log Σ_k exp (f k − top f),     top f = the fold of max over the row from −∞,
  applied row by row: the kernel takes the row's maximum and sum with lane reductions over the two classes of its block, the
  reference with reductions over the class axis of the whole array (its extra maximum with −∞ changes nothing, and its sum
  starts from the literal zero). Grid point t handles rows 10000·t … 10000·t + 9999, a row of the result depends on the same
  row of `a` and on the bias row only, and the ten row blocks written back cover the array.
-/
import proofs.«128216_j11991548690782_1_alg».proof.Proof.Gen.KernelIdeal.Frame
import proofs.«128216_j11991548690782_1_alg».proof.Proof.LayerFns
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## One row -/

/-- A row's maximum: the fold of `max` over its two entries, from −∞. -/
def rowTop (f : Fin 2 → Ideal .f32) : Ideal .f32 :=
  (Finset.univ : Finset (Fin 2)).fold max (Ideal.ofBits .f32 0xFF800000#32) f

/-- A row's log-softmax at class `q`. -/
def rowLogSoftmax (f : Fin 2 → Ideal .f32) (q : Fin 2) : Ideal .f32 :=
  (f q - rowTop f) - Ideal.log (∑ k : Fin 2, Ideal.exp (f k - rowTop f))

/-- The maximum with −∞ is the other operand. -/
theorem max_negInf (y : Ideal .f32) : max (Ideal.ofBits .f32 0xFF800000#32) y = y := by
  simp [Ideal.ofBits, Ideal.ieee]

/-- Row `p` of an n×2 array with class `k` put back is entry (p, k). -/
theorem lift_row {n : Nat} (h : (⟨2, ![n, 2]⟩ : Shape).Reduces [1] (⟨1, ![n]⟩ : Shape)) (p : Fin n)
    (k : Fin ((⟨2, ![n, 2]⟩ : Shape).size 1)) : h.lift (ix1 p) k = ix2 p (⟨k.val, k.isLt⟩ : Fin 2) := by
  funext c; apply Fin.ext
  fin_cases c <;> rfl

/-! ## The kernel's block -/

section Block

variable (x0 : Vec Ideal S10000x2 .f32) (x1 : Vec Ideal S1x2 .f32)

/-- The block's logits. -/
def bX : FVec Ideal S10000x2 .f32 :=
  addf (shapeCast S10000x2 x0 Facts₀.shapeCasts_S10000x2_S10000x2)
    (broadcastTo S10000x2 (shapeCast S1x2 x1 Facts₀.shapeCasts_S1x2_S1x2) Facts₀.broadcasts_S1x2_S10000x2)
/-- Their row maxima. -/
def bM : FVec Ideal S10000 .f32 :=
  multiReduction .maximumf [1] S10000 (bX x0 x1) 0xFF800000#32 Facts₀.reduces_S10000x2_S10000 (.inl rfl) rfl
/-- The row maxima along the rows. -/
def bMB : FVec Ideal S10000x2 .f32 :=
  broadcastTo S10000x2 (shapeCast S10000x1 (bM x0 x1) Facts₀.shapeCasts_S10000_S10000x1) Facts₀.broadcasts_S10000x1_S10000x2
/-- The rows' sums of exponentials of the shifted logits. -/
def bS : FVec Ideal S10000 .f32 :=
  multiReduction .add [1] S10000 (exp (subf (bX x0 x1) (bMB x0 x1))) 0x00000000#32 Facts₀.reduces_S10000x2_S10000 (.inl rfl) rfl
/-- Their logarithms along the rows. -/
def bLB : FVec Ideal S10000x2 .f32 :=
  broadcastTo S10000x2 (log (shapeCast S10000x1 (bS x0 x1) Facts₀.shapeCasts_S10000_S10000x1)) Facts₀.broadcasts_S10000x1_S10000x2

/-- The body's arithmetic is these stages composed. -/
theorem pay_eq : k2_pay1 (F := Ideal) x0 x1 = subf (subf (bX x0 x1) (bMB x0 x1)) (bLB x0 x1) := rfl

theorem bX_apply (p : Fin 10000) (k : Fin 2) : bX x0 x1 (ix2 p k) = x0 (ix2 p k) + x1 (ix2 (0 : Fin 1) k) := by
  unfold bX
  rw [addf_apply, shapeCast_self, shapeCast_self,
    broadcastTo_apply x1 Facts₀.broadcasts_S1x2_S10000x2 (ix2 p k) (ix2 (0 : Fin 1) k) (fun a => by
      match a with
      | ⟨0, _⟩ => rfl
      | ⟨1, _⟩ => rfl)]

theorem bM_apply (p : Fin 10000) : bM x0 x1 (ix1 p) = rowTop (fun k => bX x0 x1 (ix2 p k)) := by
  unfold bM
  refine (Ideal.multiReduction_maximumf_single (bX x0 x1) 0xFF800000#32 Facts₀.reduces_S10000x2_S10000 (.inl rfl) rfl (ix1 p)).trans ?_
  show (Finset.univ : Finset (Fin 2)).fold max (Ideal.ofBits .f32 0xFF800000#32)
    (bX x0 x1 ∘ Facts₀.reduces_S10000x2_S10000.lift (ix1 p)) = _
  unfold rowTop
  exact congrArg (fun f => Finset.fold max (Ideal.ofBits .f32 0xFF800000#32) f (Finset.univ : Finset (Fin 2)))
    (funext fun k => congrArg (bX x0 x1) (lift_row _ p k))

/-- A per-row vector laid along the rows of the block: entry (p, q) is the vector's entry p. -/
theorem alongRows_apply (v : FVec Ideal S10000 .f32) (p : Fin 10000) (q : Fin 2) :
    broadcastTo S10000x2 (shapeCast S10000x1 v Facts₀.shapeCasts_S10000_S10000x1) Facts₀.broadcasts_S10000x1_S10000x2 (ix2 p q)
      = v (ix1 p) := by
  rw [broadcastTo_apply _ Facts₀.broadcasts_S10000x1_S10000x2 (ix2 p q) (ix2 p (0 : Fin 1)) (fun a => by
      match a with
      | ⟨0, _⟩ => rfl
      | ⟨1, _⟩ => rfl),
    shapeCast_apply v Facts₀.shapeCasts_S10000_S10000x1 (ix2 p (0 : Fin 1)) (ix1 p) (by
      rewrite [Shape.rowMajor_val_one, Shape.rowMajor_val_two]
      show p.val = p.val * 1 + 0
      omega)]

theorem bMB_apply (p : Fin 10000) (q : Fin 2) : bMB x0 x1 (ix2 p q) = rowTop (fun k => bX x0 x1 (ix2 p k)) := by
  unfold bMB
  rw [alongRows_apply, bM_apply]

theorem bS_apply (p : Fin 10000) :
    bS x0 x1 (ix1 p) = ∑ k : Fin 2, Ideal.exp (bX x0 x1 (ix2 p k) - rowTop (fun k => bX x0 x1 (ix2 p k))) := by
  unfold bS
  refine (Ideal.multiReduction_add_single (exp (subf (bX x0 x1) (bMB x0 x1))) 0x00000000#32 Facts₀.reduces_S10000x2_S10000 (.inl rfl) rfl (ix1 p)).trans ?_
  show ∑ k : Fin 2, exp (subf (bX x0 x1) (bMB x0 x1)) (Facts₀.reduces_S10000x2_S10000.lift (ix1 p) k) = _
  refine Finset.sum_congr rfl fun k _ => ?_
  rw [lift_row _ p k]
  show Ideal.exp (bX x0 x1 (ix2 p k) - bMB x0 x1 (ix2 p k)) = _
  rw [bMB_apply]

theorem bLB_apply (p : Fin 10000) (q : Fin 2) :
    bLB x0 x1 (ix2 p q) = Ideal.log (∑ k : Fin 2, Ideal.exp (bX x0 x1 (ix2 p k) - rowTop (fun k => bX x0 x1 (ix2 p k)))) := by
  unfold bLB
  rw [broadcastTo_apply _ Facts₀.broadcasts_S10000x1_S10000x2 (ix2 p q) (ix2 p (0 : Fin 1)) (fun a => by
      match a with
      | ⟨0, _⟩ => rfl
      | ⟨1, _⟩ => rfl)]
  show Ideal.log (shapeCast S10000x1 (bS x0 x1) Facts₀.shapeCasts_S10000_S10000x1 (ix2 p (0 : Fin 1))) = _
  rw [shapeCast_apply (bS x0 x1) Facts₀.shapeCasts_S10000_S10000x1 (ix2 p (0 : Fin 1)) (ix1 p) (by
      rewrite [Shape.rowMajor_val_one, Shape.rowMajor_val_two]
      show p.val = p.val * 1 + 0
      omega), bS_apply]

/-- The block's result at (p, q): the log-softmax of row p of the block's logits. -/
theorem pay_apply (p : Fin 10000) (q : Fin 2) :
    k2_pay1 (F := Ideal) x0 x1 (ix2 p q) = rowLogSoftmax (fun k => x0 (ix2 p k) + x1 (ix2 (0 : Fin 1) k)) q := by
  rw [pay_eq, subf_apply, subf_apply, bMB_apply, bLB_apply]
  have hf : (fun k => bX x0 x1 (ix2 p k)) = fun k => x0 (ix2 p k) + x1 (ix2 (0 : Fin 1) k) := funext fun k => bX_apply x0 x1 p k
  rw [hf, bX_apply]
  unfold rowLogSoftmax
  refine congrArg (fun s => x0 (ix2 p q) + x1 (ix2 (0 : Fin 1) q) - rowTop (fun k => x0 (ix2 p k) + x1 (ix2 (0 : Fin 1) k)) - Ideal.log s) ?_
  exact Finset.sum_congr rfl fun k _ => by rw [bX_apply]

end Block

/-! ## The whole array -/

section Whole

theorem logits_apply (a : FVec Ideal S100000x2 .f32) (b : FVec Ideal S1x2 .f32) (r : Fin 100000) (k : Fin 2) :
    Cert.Layers.logits (F := Ideal) a b (ix2 r k) = a (ix2 r k) + b (ix2 (0 : Fin 1) k) := by
  unfold Cert.Layers.logits
  rw [addf_apply, broadcastInDim_apply _ Cert.ReferenceIdeal.Facts₀.bcast_S1x2_S100000x2_0_1 b (ix2 r k) (ix2 (0 : Fin 1) k) (fun a => by
      match a with
      | ⟨0, _⟩ => rfl
      | ⟨1, _⟩ => rfl)]

/-- The reference's maximum over the class axis, at row r. -/
theorem hostMax_apply (x : FVec Ideal S100000x2 .f32) (r : Fin 100000) :
    Host.reduce FloatOps.maximumf x (constant (F := Ideal) Cert.ReferenceIdeal.S_ .f32 0xFF800000#32)
        Cert.ReferenceIdeal.Facts₀.reducesTo_S100000x2_S100000_d1 Cert.ReferenceIdeal.Facts₀.h_S_ (ix1 r)
      = rowTop (fun k => x (ix2 r k)) := by
  refine (Host.reduce_eq_fold_single FloatOps.maximumf x _ Cert.ReferenceIdeal.Facts₀.reducesTo_S100000x2_S100000_d1
    (by decide : Cert.ReferenceIdeal.S100000x2.Reduces [1] Cert.ReferenceIdeal.S100000) Cert.ReferenceIdeal.Facts₀.h_S_ (ix1 r)).trans ?_
  unfold rowTop
  exact congrArg (fun f => Finset.fold max (Ideal.ofBits .f32 0xFF800000#32) f (Finset.univ : Finset (Fin 2)))
    (funext fun k => congrArg x (lift_row _ r k))

theorem rowMax_apply (x : FVec Ideal S100000x2 .f32) (r : Fin 100000) :
    Cert.Layers.rowMax (F := Ideal) x (ix1 r) = rowTop (fun k => x (ix2 r k)) := by
  unfold Cert.Layers.rowMax
  rw [maximumf_apply, hostMax_apply,
    broadcastInDim_apply _ Cert.ReferenceIdeal.Facts₀.bcast_S_S100000 (constant (F := Ideal) Cert.ReferenceIdeal.S_ .f32 0xFF800000#32) (ix1 r) (fun a => a.elim0) (fun a => a.elim0)]
  exact max_negInf _

/-- A per-row vector laid along the rows of the whole array: entry (r, q) is the vector's entry r. -/
theorem alongRowsW_apply (v : FVec Ideal S100000 .f32) (r : Fin 100000) (q : Fin 2) :
    broadcastInDim Cert.ReferenceIdeal.S100000x2 ![0, 1] Cert.ReferenceIdeal.Facts₀.bcast_S100000x1_S100000x2_0_1
      (broadcastInDim Cert.ReferenceIdeal.S100000x1 ![0] Cert.ReferenceIdeal.Facts₀.bcast_S100000_S100000x1_0 v) (ix2 r q) = v (ix1 r) := by
  rw [broadcastInDim_apply _ Cert.ReferenceIdeal.Facts₀.bcast_S100000x1_S100000x2_0_1
      (broadcastInDim Cert.ReferenceIdeal.S100000x1 ![0] Cert.ReferenceIdeal.Facts₀.bcast_S100000_S100000x1_0 v) (ix2 r q) (ix2 r (0 : Fin 1)) (fun a => by
      match a with
      | ⟨0, _⟩ => rfl
      | ⟨1, _⟩ => rfl),
    broadcastInDim_apply _ Cert.ReferenceIdeal.Facts₀.bcast_S100000_S100000x1_0 v (ix2 r (0 : Fin 1)) (ix1 r) (fun a => by
      match a with
      | ⟨0, _⟩ => rfl)]

theorem shifted_apply (x : FVec Ideal S100000x2 .f32) (r : Fin 100000) (q : Fin 2) :
    Cert.Layers.shifted (F := Ideal) x (ix2 r q) = x (ix2 r q) - rowTop (fun k => x (ix2 r k)) := by
  unfold Cert.Layers.shifted
  rw [subf_apply, alongRowsW_apply, rowMax_apply]

/-- The reference's sums over the class axis of the exponentials of the shifted logits. -/
def wS (x : FVec Ideal S100000x2 .f32) : FVec Ideal S100000 .f32 :=
  Host.reduceAdd (F := Ideal) (Host.exp (F := Ideal) (Cert.Layers.shifted (F := Ideal) x)) (constant (F := Ideal) Cert.ReferenceIdeal.S_ .f32 0x00000000#32)
    Cert.ReferenceIdeal.Facts₀.reducesTo_S100000x2_S100000_d1 Cert.ReferenceIdeal.Facts₀.h_S_

/-- At row r (the literal zero added in front changes nothing). -/
theorem wS_apply (x : FVec Ideal S100000x2 .f32) (r : Fin 100000) :
    wS x (ix1 r) = ∑ k : Fin 2, Ideal.exp (x (ix2 r k) - rowTop (fun k => x (ix2 r k))) := by
  have hR : Cert.ReferenceIdeal.S100000x2.Reduces [1] Cert.ReferenceIdeal.S100000 := by decide
  have h0 : (constant (F := Ideal) Cert.ReferenceIdeal.S_ .f32 0x00000000#32) (Shape.Idx.first Cert.ReferenceIdeal.Facts₀.h_S_) = 0 :=
    Ideal.ofBits_zero_f32
  unfold wS
  simp only [Host.reduceAdd, Ideal.hostReduceAdd_def]
  refine (Ideal.hostReduceAdd_single Cert.ReferenceIdeal.Facts₀.reducesTo_S100000x2_S100000_d1 hR _ _ (ix1 r)).trans ?_
  refine (congrArg₂ (· + ·) h0 (Finset.sum_congr rfl fun k _ => ?_)).trans (zero_add _)
  rw [lift_row hR r k]
  exact congrArg Ideal.exp (shifted_apply x r _)

/-- The logarithm of a per-row vector laid along the rows of the whole array. -/
theorem alongRowsLog_apply (v : FVec Ideal S100000 .f32) (r : Fin 100000) (q : Fin 2) :
    broadcastInDim Cert.ReferenceIdeal.S100000x2 ![0, 1] Cert.ReferenceIdeal.Facts₀.bcast_S100000x1_S100000x2_0_1
      (Host.log (F := Ideal) (broadcastInDim Cert.ReferenceIdeal.S100000x1 ![0] Cert.ReferenceIdeal.Facts₀.bcast_S100000_S100000x1_0 v)) (ix2 r q)
      = Ideal.log (v (ix1 r)) := by
  rw [broadcastInDim_apply _ Cert.ReferenceIdeal.Facts₀.bcast_S100000x1_S100000x2_0_1
      (Host.log (F := Ideal) (broadcastInDim Cert.ReferenceIdeal.S100000x1 ![0] Cert.ReferenceIdeal.Facts₀.bcast_S100000_S100000x1_0 v))
      (ix2 r q) (ix2 r (0 : Fin 1)) (fun a => by
      match a with
      | ⟨0, _⟩ => rfl
      | ⟨1, _⟩ => rfl)]
  show Ideal.log (broadcastInDim Cert.ReferenceIdeal.S100000x1 ![0] Cert.ReferenceIdeal.Facts₀.bcast_S100000_S100000x1_0 v (ix2 r (0 : Fin 1))) = _
  rw [broadcastInDim_apply _ Cert.ReferenceIdeal.Facts₀.bcast_S100000_S100000x1_0 v (ix2 r (0 : Fin 1)) (ix1 r) (fun a => by
      match a with
      | ⟨0, _⟩ => rfl)]

theorem logSoftmax_eq (x : FVec Ideal S100000x2 .f32) :
    Cert.Layers.logSoftmax (F := Ideal) x
      = subf (Cert.Layers.shifted (F := Ideal) x)
          (broadcastInDim Cert.ReferenceIdeal.S100000x2 ![0, 1] Cert.ReferenceIdeal.Facts₀.bcast_S100000x1_S100000x2_0_1
            (Host.log (F := Ideal) (broadcastInDim Cert.ReferenceIdeal.S100000x1 ![0] Cert.ReferenceIdeal.Facts₀.bcast_S100000_S100000x1_0 (wS x)))) := rfl

theorem logSoftmax_apply (x : FVec Ideal S100000x2 .f32) (r : Fin 100000) (q : Fin 2) :
    Cert.Layers.logSoftmax (F := Ideal) x (ix2 r q) = rowLogSoftmax (fun k => x (ix2 r k)) q := by
  rw [logSoftmax_eq, subf_apply, shifted_apply, alongRowsLog_apply, wS_apply]
  rfl

/-- The whole result at (r, q): the log-softmax of row r of the logits. -/
theorem biasLogSoftmax_apply (a : FVec Ideal S100000x2 .f32) (b : FVec Ideal S1x2 .f32) (r : Fin 100000) (q : Fin 2) :
    Cert.Layers.biasLogSoftmax (F := Ideal) a b (ix2 r q) = rowLogSoftmax (fun k => a (ix2 r k) + b (ix2 (0 : Fin 1) k)) q := by
  unfold Cert.Layers.biasLogSoftmax
  rw [logSoftmax_apply]
  exact congrArg (fun f => rowLogSoftmax f q) (funext fun k => logits_apply a b r k)

end Whole

/-- A row block of the result from the row block of the aggregate: when the block `x0` holds rows `β·10000 …` of `a` and the
    bias block is the whole bias row, entry `j` of the block's result is entry `i` of the whole result, for `i` the entry `j` of
    row block `β`. -/
theorem block_entry (a : FVec Ideal S100000x2 .f32) (b : FVec Ideal S1x2 .f32)
    (x0 : Vec Ideal S10000x2 .f32) (x1 : Vec Ideal S1x2 .f32) (β : Nat)
    (h0 : ∀ (y : S10000x2.Idx) (i' : S100000x2.Idx), (i' 0).val = β * 10000 + (y 0).val → (i' 1).val = (y 1).val → x0 y = a i')
    (h1 : x1 = b) (j : S10000x2.Idx) (i : S100000x2.Idx)
    (hi0 : (i 0).val = β * 10000 + (j 0).val) (hi1 : (i 1).val = (j 1).val) :
    k2_pay1 (F := Ideal) x0 x1 j = Cert.Layers.biasLogSoftmax (F := Ideal) a b i := by
  obtain ⟨p, q, rfl⟩ : ∃ (p : Fin 10000) (q : Fin 2), j = ix2 p q := ⟨j 0, j 1, eq_ix2 j⟩
  obtain ⟨r, s, rfl⟩ : ∃ (r : Fin 100000) (s : Fin 2), i = ix2 r s := ⟨i 0, i 1, eq_ix2 i⟩
  have hs : s = q := Fin.ext hi1
  subst hs h1
  rw [pay_apply, biasLogSoftmax_apply]
  exact congrArg (fun f => rowLogSoftmax f s) (funext fun k => by rw [h0 (ix2 p k) (ix2 r k) hi0 rfl])

variable (V : (c : Dev nD) → (b : Ref sig .tc) → Buf (Elt Ideal) ((c : Thread nD τ).loc b))

/-- The printed index maps over the grid: the aggregate's window and the result window are at row block `t`, column block 0;
    the bias window at block (0, 0). -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the whole result of the arrays as the region finds them. -/
theorem flushed_eq (c : Dev nD) (t : Fin cfg2.N) :
    (dat2 (F := Ideal) V c).flushed 2 t
      = ((cfg2.win 2).blk t).view.read (Elt Ideal) (Cert.Layers.biasLogSoftmax (F := Ideal) (V c main_v58) (V c main_v59)) := by
  show (cfg2.win 2).cut (grid2.coords t) ((dat2 (F := Ideal) V c).after 2 t) = _
  rw [after2_2]
  unfold out2_2
  rw [View.canon_unit_zero hz]
  simp only [View.ld_unit_zero (S := S10000x2) hz, View.ld_unit_zero (S := S1x2) hz]
  obtain ⟨e0, e1, e2, e3, e4, e5⟩ := idx_facts t
  funext j
  show k2_pay1 (F := Ideal) (iblk2 V c 0 t) (iblk2 V c 1 t) j
    = Cert.Layers.biasLogSoftmax (F := Ideal) (V c main_v58) (V c main_v59) (((cfg2.win 2).blk t).view.emb j)
  refine block_entry (V c main_v58) (V c main_v59) (iblk2 V c 0 t) (iblk2 V c 1 t) (win2_2.index t (0 : Fin 2)) ?_ ?_ j _ ?_ ?_
  · intro y i' h0 h1
    show V c main_v58 (((cfg2.win 0).blk t).view.emb y) = V c main_v58 i'
    congr 1
    funext a; apply Fin.ext
    match a with
    | ⟨0, _⟩ => show win2_0.index t (0 : Fin 2) * 10000 + 1 * (y 0).val = (i' 0).val; omega
    | ⟨1, _⟩ => show win2_0.index t (1 : Fin 2) * 2 + 1 * (y 1).val = (i' 1).val; omega
  · funext y
    show V c main_v59 (((cfg2.win 1).blk t).view.emb y) = V c main_v59 y
    congr 1
    funext a; apply Fin.ext
    match a with
    | ⟨0, _⟩ => show win2_1.index t (0 : Fin 2) * 1 + 1 * (y 0).val = (y 0).val; omega
    | ⟨1, _⟩ => show win2_1.index t (1 : Fin 2) * 2 + 1 * (y 1).val = (y 1).val; omega
  · show win2_2.index t (0 : Fin 2) * 10000 + 1 * (j 0).val = win2_2.index t (0 : Fin 2) * 10000 + (j 0).val; omega
  · show win2_2.index t (1 : Fin 2) * 2 + 1 * (j 1).val = (j 1).val; omega

/-- An index of the result array is in point `t`'s block iff each coordinate is in the block's range on its axis. -/
theorem mem_blk (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v60).slice (win2_2.rect t)).set ↔ _
  rw [View.set_slice_whole, Rect.mem_set_unit]
  exact Iff.rfl

/-- Row r of the result is in the block of the point at row block r / 10000. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 2 ≤ (i 1).val ∧ (i 1).val < win2_2.index t (1 : Fin 2) * 2 + 2; omega

/-- THE RESULT ARRAY after the region: the row-wise log-softmax of the logits, of the arrays it was entered with. -/
theorem value (c : Dev nD) :
    (dat2 (F := Ideal) V c).arrAt 2 cfg2.N = Cert.Layers.biasLogSoftmax (F := Ideal) (V c main_v58) (V c main_v59) :=
  (dat2 (F := Ideal) V c).arrAt_eq_of_cover 2 _ (fun t _ => flushed_eq V c t) cover

end Cert.KernelIdeal.Region2

end
-- ==== Proof.KernelFold.lean ====
/-
  The idealized kernel's run as ONE fold of operations.

  Each pallas_call leaves its result array at a whole-array function of its input arrays' entry contents (the three region
  modules) and every other buffer as it was, which is what a single host operation computing that function leaves. So the
  buffer contents at @main's last segment boundary are the fold, from the launch contents, of the five stretches of host
  operations with the three regions' operations in their places.
-/
import proofs.«128216_j11991548690782_1_alg».proof.Proof.Gen.KernelIdeal.Frame
import proofs.«128216_j11991548690782_1_alg».proof.Proof.LibRegionOp
import proofs.«128216_j11991548690782_1_alg».proof.Proof.LayerFns
import proofs.«128216_j11991548690782_1_alg».proof.Proof.Region0
import proofs.«128216_j11991548690782_1_alg».proof.Proof.Region1
import proofs.«128216_j11991548690782_1_alg».proof.Proof.Region2

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first pallas_call as an operation: the result array takes the first layer's linear map of the features and weights. -/
def op0 : HloOp τ sig (Elt Ideal) :=
  binary main_arg0 main_arg2 main_v30 (fun x w => Cert.Layers.lin1 (F := Ideal) x w)

/-- The second pallas_call as an operation: the rectified, biased aggregate through the second layer's linear map. -/
def op1 : HloOp τ sig (Elt Ideal) :=
  ternary main_v43 main_v44 main_arg4 main_v45 (fun a b w => Cert.Layers.reluLin2 (F := Ideal) a b w)

/-- The third pallas_call as an operation: bias and row-wise log-softmax. -/
def op2 : HloOp τ sig (Elt Ideal) :=
  binary main_v58 main_v59 main_v60 (fun a b => Cert.Layers.biasLogSoftmax (F := Ideal) a b)

/-- The contents the first region leaves are what its operation leaves of its entry contents. -/
theorem W4_eq (c : Dev nD) : W4 m ρ c = op0.result (W3 m ρ c) := by
  unfold W4
  refine Cert.Lib.RegionOp.withArrays_eq_result spec0 launch0.win.arr_inj c (W3 m ρ c) _ op0 2 rfl ?_ ?_
  · rw [Region0.value (V3 m ρ) c]
    exact (binary_result main_arg0 main_arg2 main_v30 _ _ _ _ (W3 m ρ c)).symm
  · intro w hw
    match w with
    | ⟨0, _⟩ => exact ((dat0 (V3 m ρ) c).arrAt_in 0 rfl _).trans (A_eq0 (V3 m ρ) c 0)
    | ⟨1, _⟩ => exact ((dat0 (V3 m ρ) c).arrAt_in 1 rfl _).trans (A_eq0 (V3 m ρ) c 1)
    | ⟨2, _⟩ => exact absurd rfl hw

/-- The contents the second region leaves are what its operation leaves of its entry contents. -/
theorem W6_eq (c : Dev nD) : W6 m ρ c = op1.result (W5 m ρ c) := by
  unfold W6
  refine Cert.Lib.RegionOp.withArrays_eq_result spec1 launch1.win.arr_inj c (W5 m ρ c) _ op1 3 rfl ?_ ?_
  · rw [Region1.value (V5 m ρ) c]
    exact (ternary_result main_v43 main_v44 main_arg4 main_v45 _ _ _ _ _ (W5 m ρ c)).symm
  · intro w hw
    match w with
    | ⟨0, _⟩ => exact ((dat1 (V5 m ρ) c).arrAt_in 0 rfl _).trans (A_eq1 (V5 m ρ) c 0)
    | ⟨1, _⟩ => exact ((dat1 (V5 m ρ) c).arrAt_in 1 rfl _).trans (A_eq1 (V5 m ρ) c 1)
    | ⟨2, _⟩ => exact ((dat1 (V5 m ρ) c).arrAt_in 2 rfl _).trans (A_eq1 (V5 m ρ) c 2)
    | ⟨3, _⟩ => exact absurd rfl hw

/-- The contents the third region leaves are what its operation leaves of its entry contents. -/
theorem W8_eq (c : Dev nD) : W8 m ρ c = op2.result (W7 m ρ c) := by
  unfold W8
  refine Cert.Lib.RegionOp.withArrays_eq_result spec2 launch2.win.arr_inj c (W7 m ρ c) _ op2 2 rfl ?_ ?_
  · rw [Region2.value (V7 m ρ) c]
    exact (binary_result main_v58 main_v59 main_v60 _ _ _ _ (W7 m ρ c)).symm
  · intro w hw
    match w with
    | ⟨0, _⟩ => exact ((dat2 (V7 m ρ) c).arrAt_in 0 rfl _).trans (A_eq2 (V7 m ρ) c 0)
    | ⟨1, _⟩ => exact ((dat2 (V7 m ρ) c).arrAt_in 1 rfl _).trans (A_eq2 (V7 m ρ) c 1)
    | ⟨2, _⟩ => exact absurd rfl hw

/-- THE LAST BOUNDARY'S CONTENTS as the fold of operations from the contents `X` after the first three stretches (the
    index and normalisation arrays): region, stretch, region, stretch, region. -/
theorem W8_fold (c : Dev nD) :
    W8 m ρ c = op2.result (after hostOps2 (op1.result (after hostOps1 (op0.result (W3 m ρ c))))) := by
  rw [W8_eq]
  show op2.result (after hostOps2 (W6 m ρ c)) = _
  rw [W6_eq]
  show op2.result (after hostOps2 (op1.result (after hostOps1 (W4 m ρ c)))) = _
  rw [W4_eq]

end Cert.KernelIdeal.Fold

end
-- ==== Proof.LibAfter.lean ====
/-
  General facts for reading the fold of buffer contents through a line of host operations.

  * Over a concatenation: running two lines one after the other is running the first, then the second from what the first
    left (`after_append`).
  * A concatenation of TWO arrays with the arrays as plain arguments (`concat2`, `concatenate_pair`): in `concatenate` the
    operands sit in a list of (shape, array) pairs on which the shape fact depends, so a rewriting pass cannot go inside the
    list; stated over the two arrays it can.
  * `read_fold`: one rewriting pass that reads such a fold back at a buffer — each operation's result at its own result
    buffer is its function of the operands' contents, at any other buffer what was there — going inside two-operand
    concatenations as well.
-/
import Idealize.ShloMosaic.Lib.StableHlo.Run

noncomputable section

namespace Cert.Lib.After

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation of two arrays along an axis, the arrays as plain arguments. -/
def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A two-operand `concatenate` is that. -/
theorem concatenate_pair {α : Type} (t : Shape) (a : Fin t.rank) (s₁ s₂ : Shape) (x : s₁.Idx → α) (y : s₂.Idx → α)
    (h : Shape.Concatenates (([⟨s₁, x⟩, ⟨s₂, y⟩] : List ((s : Shape) × (s.Idx → α))).map (·.1)) t a) :
    concatenate t a [⟨s₁, x⟩, ⟨s₂, y⟩] h = concat2 t a s₁ s₂ x y (by simpa using h) := rfl

end Cert.Lib.After

/-- Reads a fold of host operations back at a buffer in one rewriting pass (the library's pass, and inside two-operand
    concatenations). -/
macro "read_fold" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.Lib.After.concatenate_pair]))

end
-- ==== Proof.RefSegments.lean ====
/-
  The reference program's @main cut into eight consecutive stretches, so that its run can be read one stretch at a time:

  * `rIdx`   — the index arrays (source and destination of every edge with the self loops appended) and the in-degree of
               every node;
  * `rWhere` — the inverse square root of the in-degree where it is positive, zero elsewhere;
  * `rNorm`  — the symmetric normalisation weight of every edge;
  * `rLin1`  — the first layer's linear map of the node features;
  * `rB`     — the first layer's aggregation: gather along the sources, scale by the weights, scatter-add to the destinations;
  * `rAct`   — the first layer's bias and rectifier, and the second layer's linear map;
  * `rC`     — the second layer's aggregation;
  * `rOut`   — the second layer's bias and the row-wise log-softmax.

  The operations are the program's own, in order; `ops_split` says their concatenation is the whole list.
-/
import proofs.«128216_j11991548690782_1_alg».proof.Proof.RefRun
import proofs.«128216_j11991548690782_1_alg».proof.Proof.LibAfter

set_option maxRecDepth 16384

noncomputable section

namespace Cert.ReferenceIdeal.Seg

open Cert.ReferenceIdeal Cert.ReferenceIdeal.Gen Idealize.ShloMosaic Idealize.ShloMosaic.TcCoe Idealize.SL.Sem Idealize.ShloMosaic.StableHlo

variable {F : FTy → Type} [FloatOps F]

/-- The edges' source and destination arrays (the self loops appended) and every node's in-degree. -/
abbrev rIdx : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The inverse square root of the in-degree where it is positive, zero elsewhere. -/
abbrev rWhere : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Every edge's normalisation weight: the product of that quantity at its source and at its destination. -/
abbrev rNorm : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first layer's linear map. -/
abbrev rLin1 : List (HloOp τ sig (Elt F)) :=
  [ binary main_arg0 main_arg2 main_v30 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)) ]

/-- The first layer's aggregation. -/
abbrev rB : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x32 ![0, 1] bcast_S3300000x1_S3300000x32_0_1 : (⟨S3300000x1, .f32⟩ : BufTy).Contents (Elt F) → (⟨S3300000x32, .f32⟩ : BufTy).Contents (Elt F)),
    binary main_v37 main_v39 main_v40 (mulf : (⟨S3300000x32, .f32⟩ : BufTy).Contents (Elt F) → (⟨S3300000x32, .f32⟩ : BufTy).Contents (Elt F) → (⟨S3300000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]

/-- Bias, rectifier and the second layer's linear map. -/
abbrev rAct : List (HloOp τ sig (Elt F)) :=
  [ unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf,
    binary main_v47 main_arg4 main_v48 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)) ]

/-- The second layer's aggregation. -/
abbrev rC : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x2 ![0, 1] bcast_S3300000x1_S3300000x2_0_1 : (⟨S3300000x1, .f32⟩ : BufTy).Contents (Elt F) → (⟨S3300000x2, .f32⟩ : BufTy).Contents (Elt F)),
    binary main_v55 main_v57 main_v58 (mulf : (⟨S3300000x2, .f32⟩ : BufTy).Contents (Elt F) → (⟨S3300000x2, .f32⟩ : BufTy).Contents (Elt F) → (⟨S3300000x2, .f32⟩ : BufTy).Contents (Elt F)),
    nullary main_cst_11 (constant S_ .f32 0x00000000#32),
    unary main_cst_11 main_v59 (broadcastInDim S100000x2 ![] bcast_S_S100000x2 : (⟨S_, .f32⟩ : BufTy).Contents (Elt F) → (⟨S100000x2, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)) ]

/-- Bias and row-wise log-softmax. -/
abbrev rOut : List (HloOp τ sig (Elt F)) :=
  [ unary main_arg5 main_v62 (broadcastInDim S1x2 ![1] bcast_S2_S1x2_1 : (⟨S2, .f32⟩ : BufTy).Contents (Elt F) → (⟨S1x2, .f32⟩ : BufTy).Contents (Elt F)),
    unary main_v62 main_v63 (broadcastInDim S100000x2 ![0, 1] bcast_S1x2_S100000x2_0_1 : (⟨S1x2, .f32⟩ : BufTy).Contents (Elt F) → (⟨S100000x2, .f32⟩ : BufTy).Contents (Elt F)),
    binary main_v61 main_v63 main_v64 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call2_cst) (constant S_ .f32 0xFF800000#32),
    TRef.binary (TRef.of (T := ⟨S100000x2, .f32⟩) main_v64) (TRef.of (T := ⟨S_, .f32⟩) main_call2_cst) (TRef.of (T := ⟨S100000, .f32⟩) main_call2_v0) (fun x v => Host.reduce FloatOps.maximumf x v reducesTo_S100000x2_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x2, .f32⟩) main_call2_v4) (broadcastInDim S100000x2 ![0, 1] bcast_S100000x1_S100000x2_0_1),
    TRef.binary (TRef.of (T := ⟨S100000x2, .f32⟩) main_v64) (TRef.of (T := ⟨S100000x2, .f32⟩) main_call2_v4) (TRef.of (T := ⟨S100000x2, .f32⟩) main_call2_v5) subf,
    TRef.unary (TRef.of (T := ⟨S100000x2, .f32⟩) main_call2_v5) (TRef.of (T := ⟨S100000x2, .f32⟩) main_call2_v6) Host.exp,
    TRef.nullary (TRef.of (T := ⟨S_, .f32⟩) main_call2_cst_1) (constant S_ .f32 0x00000000#32),
    TRef.binary (TRef.of (T := ⟨S100000x2, .f32⟩) main_call2_v6) (TRef.of (T := ⟨S_, .f32⟩) main_call2_cst_1) (TRef.of (T := ⟨S100000, .f32⟩) main_call2_v7) (fun x v => Host.reduceAdd x v reducesTo_S100000x2_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x2, .f32⟩) main_call2_v10) (broadcastInDim S100000x2 ![0, 1] bcast_S100000x1_S100000x2_0_1),
    TRef.binary (TRef.of (T := ⟨S100000x2, .f32⟩) main_call2_v5) (TRef.of (T := ⟨S100000x2, .f32⟩) main_call2_v10) (TRef.of (T := ⟨S100000x2, .f32⟩) main_v65) subf ]

set_option maxRecDepth 65536 in
/-- The eight stretches in order are the whole program. -/
theorem ops_split : (Value.ops (F := F)) = rIdx ++ (rWhere ++ (rNorm ++ (rLin1 ++ (rB ++ (rAct ++ (rC ++ rOut)))))) := rfl

/-- So the contents after the whole program are the eight stretches' folds composed. -/
theorem after_ops (V : Valuation τ sig (Elt F)) :
    after (Value.ops (F := F)) V = after rOut (after rC (after rAct (after rB (after rLin1 (after rNorm (after rWhere (after rIdx V))))))) := by
  rw [ops_split]
  simp only [Cert.Lib.After.after_append]

end Cert.ReferenceIdeal.Seg

end
-- ==== Proof.BridgeBase.lean ====
/-
  What the two idealized programs share at matching boundaries.

  The kernel's program and the reference apply the same host operations to the same index data; they differ only in how the
  three dense stages are computed. So at matching boundaries of the two programs the buffers they share hold equal contents:
  the source and destination index arrays, the edges' normalisation weights, the biases and the second weight matrix (a
  `Tie`). A bias enters the kernel's dense stages as the 1×n reshape of the bias vector and the reference's as its broadcast
  to 1×n: the same row (`rowOfVec`).
-/
import proofs.«128216_j11991548690782_1_alg».proof.Proof.KernelFold
import proofs.«128216_j11991548690782_1_alg».proof.Proof.RefSegments
import proofs.«128216_j11991548690782_1_alg».proof.Proof.LayerFns
import proofs.«128216_j11991548690782_1_alg».proof.Proof.LibAfter
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.StableHlo Idealize.ShloMosaic.ValueIdx

/-- Buffer contents of the kernel's program, and of the reference. -/
abbrev KV := Valuation Cert.KernelIdeal.τ Cert.KernelIdeal.sig (Elt Ideal)
abbrev RV := Valuation Cert.ReferenceIdeal.τ Cert.ReferenceIdeal.sig (Elt Ideal)

/-- A vector reshaped to one row is the vector broadcast to one row. -/
theorem rowOfVec {α : Type} {n : Nat} (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) h' x := by
  funext i
  obtain ⟨a, k, rfl⟩ : ∃ (a : Fin 1) (k : Fin n), i = ix2 a k := ⟨i 0, i 1, eq_ix2 i⟩
  have ha : a.val = 0 := by have := a.isLt; omega
  rw [shapeCast_apply x h (ix2 a k) (ix1 k) (by
      rewrite [Shape.rowMajor_val_one, Shape.rowMajor_val_two]
      show k.val = a.val * n + k.val
      rw [ha, Nat.zero_mul, Nat.zero_add]),
    broadcastInDim_apply _ h' x (ix2 a k) (ix1 k) (fun b => by
      match b with
      | ⟨0, _⟩ => show k.val = if n = 1 then 0 else k.val; rw [if_neg hn])]

/-- What the two programs share at matching boundaries: the edges' sources and destinations, their normalisation weights,
    the first bias, the second weight matrix and the second bias. -/
structure Tie (Y : KV) (Z : RV) : Prop where
  src : Y (Proc.devRef .tc Cert.KernelIdeal.main_v3) = Z (Proc.devRef .tc Cert.ReferenceIdeal.main_v3)
  dst : Y (Proc.devRef .tc Cert.KernelIdeal.main_v6) = Z (Proc.devRef .tc Cert.ReferenceIdeal.main_v6)
  nrm : Y (Proc.devRef .tc Cert.KernelIdeal.main_v29) = Z (Proc.devRef .tc Cert.ReferenceIdeal.main_v29)
  b1 : Y (Proc.devRef .tc Cert.KernelIdeal.main_arg3) = Z (Proc.devRef .tc Cert.ReferenceIdeal.main_arg3)
  w2 : Y (Proc.devRef .tc Cert.KernelIdeal.main_arg4) = Z (Proc.devRef .tc Cert.ReferenceIdeal.main_arg4)
  b2 : Y (Proc.devRef .tc Cert.KernelIdeal.main_arg5) = Z (Proc.devRef .tc Cert.ReferenceIdeal.main_arg5)

end Cert.Bridge

end
-- ==== Proof.BridgeIdx.lean ====
/-
  The index stretch: both programs build the edges' source and destination arrays, every node's in-degree, the inverse
  square root of the positive degrees and every edge's normalisation weight by the same operations on the same edge list.
  The stretch is read in three steps — index arrays and degrees; the guarded inverse square root; the weights — each step
  taking what the two programs share at its start to what they share at its end, so that no step has to look further back
  than the step before it.
-/
import proofs.«128216_j11991548690782_1_alg».proof.Proof.BridgeBase

set_option maxRecDepth 16384

noncomputable section

namespace Cert.Bridge

open Idealize.ShloMosaic Idealize.ShloMosaic.TcCoe Idealize.ShloMosaic.StableHlo Idealize.ShloMosaic.ValueIdx

/-- The arguments that later stretches still read: the features, both weight matrices and both biases. -/
structure TieArgs (Y : KV) (Z : RV) : Prop where
  x : Y (Proc.devRef .tc Cert.KernelIdeal.main_arg0) = Z (Proc.devRef .tc Cert.ReferenceIdeal.main_arg0)
  w1 : Y (Proc.devRef .tc Cert.KernelIdeal.main_arg2) = Z (Proc.devRef .tc Cert.ReferenceIdeal.main_arg2)
  b1 : Y (Proc.devRef .tc Cert.KernelIdeal.main_arg3) = Z (Proc.devRef .tc Cert.ReferenceIdeal.main_arg3)
  w2 : Y (Proc.devRef .tc Cert.KernelIdeal.main_arg4) = Z (Proc.devRef .tc Cert.ReferenceIdeal.main_arg4)
  b2 : Y (Proc.devRef .tc Cert.KernelIdeal.main_arg5) = Z (Proc.devRef .tc Cert.ReferenceIdeal.main_arg5)

/-- After the first step: the source and destination arrays, the test "degree positive", the degrees' inverse square
    roots, and the zero the guard falls back to. -/
structure TieDeg (Y : KV) (Z : RV) : Prop where
  src : Y (Proc.devRef .tc Cert.KernelIdeal.main_v3) = Z (Proc.devRef .tc Cert.ReferenceIdeal.main_v3)
  dst : Y (Proc.devRef .tc Cert.KernelIdeal.main_v6) = Z (Proc.devRef .tc Cert.ReferenceIdeal.main_v6)
  pos : Y (Proc.devRef .tc Cert.KernelIdeal.main_v12) = Z (Proc.devRef .tc Cert.ReferenceIdeal.main_v12)
  rsq : Y (Proc.devRef .tc Cert.KernelIdeal.main_v13) = Z (Proc.devRef .tc Cert.ReferenceIdeal.main_v13)
  zero : Y (Proc.devRef .tc Cert.KernelIdeal.main_cst_2) = Z (Proc.devRef .tc Cert.ReferenceIdeal.main_cst_2)

/-- After the second step: the index arrays and the guarded inverse square root of the degrees. -/
structure TieDis (Y : KV) (Z : RV) : Prop where
  src : Y (Proc.devRef .tc Cert.KernelIdeal.main_v3) = Z (Proc.devRef .tc Cert.ReferenceIdeal.main_v3)
  dst : Y (Proc.devRef .tc Cert.KernelIdeal.main_v6) = Z (Proc.devRef .tc Cert.ReferenceIdeal.main_v6)
  dis : Y (Proc.devRef .tc Cert.KernelIdeal.main_v14) = Z (Proc.devRef .tc Cert.ReferenceIdeal.main_v14)

set_option maxHeartbeats 2000000 in
/-- INDEX ARRAYS AND DEGREES: from contents that agree on the edge list (and the other arguments). -/
theorem segIdx (Y : KV) (Z : RV) (h1 : Y (Proc.devRef .tc Cert.KernelIdeal.main_arg1) = Z (Proc.devRef .tc Cert.ReferenceIdeal.main_arg1)) (a : TieArgs Y Z) :
    TieDeg (after Cert.KernelIdeal.Gen.hostOps0 Y) (after Cert.ReferenceIdeal.Seg.rIdx Z) ∧ TieArgs (after Cert.KernelIdeal.Gen.hostOps0 Y) (after Cert.ReferenceIdeal.Seg.rIdx Z) := by
  obtain ⟨a0, a2, a3, a4, a5⟩ := a
  refine ⟨⟨?_, ?_, ?_, ?_, ?_⟩, ⟨?_, ?_, ?_, ?_, ?_⟩⟩
  all_goals simp only [Cert.KernelIdeal.Gen.hostOps0, Cert.ReferenceIdeal.Seg.rIdx]
  all_goals read_fold
  · rw [h1]; rfl
  · rw [h1]; rfl
  · rw [h1]; rfl
  · rw [h1]; rfl
  · exact a0
  · exact a2
  · exact a3
  · exact a4
  · exact a5

set_option maxHeartbeats 2000000 in
/-- THE GUARDED INVERSE SQUARE ROOT. -/
theorem segWhere (Y : KV) (Z : RV) (d : TieDeg Y Z) (a : TieArgs Y Z) :
    TieDis (after Cert.KernelIdeal.Gen.hostOps0_1 Y) (after Cert.ReferenceIdeal.Seg.rWhere Z) ∧ TieArgs (after Cert.KernelIdeal.Gen.hostOps0_1 Y) (after Cert.ReferenceIdeal.Seg.rWhere Z) := by
  obtain ⟨d0, d1, d2, d3, d4⟩ := d
  obtain ⟨a0, a2, a3, a4, a5⟩ := a
  refine ⟨⟨?_, ?_, ?_⟩, ⟨?_, ?_, ?_, ?_, ?_⟩⟩
  all_goals simp only [Cert.KernelIdeal.Gen.hostOps0_1, Cert.ReferenceIdeal.Seg.rWhere]
  all_goals read_fold
  all_goals try simp only [TRef.toBuf, TRef.ofBuf, cast_cast, cast_eq]
  · exact d0
  · exact d1
  · rw [d2, d3, d4]
  · exact a0
  · exact a2
  · exact a3
  · exact a4
  · exact a5

set_option maxHeartbeats 2000000 in
/-- THE EDGES' WEIGHTS. -/
theorem segNorm (Y : KV) (Z : RV) (d : TieDis Y Z) (a : TieArgs Y Z) :
    Tie (after Cert.KernelIdeal.Gen.hostOps0_2 Y) (after Cert.ReferenceIdeal.Seg.rNorm Z)
    ∧ after Cert.KernelIdeal.Gen.hostOps0_2 Y (Proc.devRef .tc Cert.KernelIdeal.main_arg0) = after Cert.ReferenceIdeal.Seg.rNorm Z (Proc.devRef .tc Cert.ReferenceIdeal.main_arg0)
    ∧ after Cert.KernelIdeal.Gen.hostOps0_2 Y (Proc.devRef .tc Cert.KernelIdeal.main_arg2) = after Cert.ReferenceIdeal.Seg.rNorm Z (Proc.devRef .tc Cert.ReferenceIdeal.main_arg2) := by
  obtain ⟨d0, d1, d2⟩ := d
  obtain ⟨a0, a2, a3, a4, a5⟩ := a
  refine ⟨⟨?_, ?_, ?_, ?_, ?_, ?_⟩, ?_, ?_⟩
  all_goals simp only [Cert.KernelIdeal.Gen.hostOps0_2, Cert.ReferenceIdeal.Seg.rNorm]
  all_goals read_fold
  · exact d0
  · exact d1
  · rw [d0, d1, d2]; rfl
  · exact a3
  · exact a4
  · exact a5
  · exact a0
  · exact a2

/-- ACROSS THE INDEX STRETCH: from contents that agree on the six arguments, the index arrays and weights agree, and the
    arguments still do. -/
theorem segA (Y : KV) (Z : RV)
    (h0 : Y (Proc.devRef .tc Cert.KernelIdeal.main_arg0) = Z (Proc.devRef .tc Cert.ReferenceIdeal.main_arg0)) (h1 : Y (Proc.devRef .tc Cert.KernelIdeal.main_arg1) = Z (Proc.devRef .tc Cert.ReferenceIdeal.main_arg1))
    (h2 : Y (Proc.devRef .tc Cert.KernelIdeal.main_arg2) = Z (Proc.devRef .tc Cert.ReferenceIdeal.main_arg2)) (h3 : Y (Proc.devRef .tc Cert.KernelIdeal.main_arg3) = Z (Proc.devRef .tc Cert.ReferenceIdeal.main_arg3))
    (h4 : Y (Proc.devRef .tc Cert.KernelIdeal.main_arg4) = Z (Proc.devRef .tc Cert.ReferenceIdeal.main_arg4)) (h5 : Y (Proc.devRef .tc Cert.KernelIdeal.main_arg5) = Z (Proc.devRef .tc Cert.ReferenceIdeal.main_arg5)) :
    Tie (after Cert.KernelIdeal.Gen.hostOps0_2 (after Cert.KernelIdeal.Gen.hostOps0_1 (after Cert.KernelIdeal.Gen.hostOps0 Y))) (after Cert.ReferenceIdeal.Seg.rNorm (after Cert.ReferenceIdeal.Seg.rWhere (after Cert.ReferenceIdeal.Seg.rIdx Z)))
    ∧ after Cert.KernelIdeal.Gen.hostOps0_2 (after Cert.KernelIdeal.Gen.hostOps0_1 (after Cert.KernelIdeal.Gen.hostOps0 Y)) (Proc.devRef .tc Cert.KernelIdeal.main_arg0) = after Cert.ReferenceIdeal.Seg.rNorm (after Cert.ReferenceIdeal.Seg.rWhere (after Cert.ReferenceIdeal.Seg.rIdx Z)) (Proc.devRef .tc Cert.ReferenceIdeal.main_arg0)
    ∧ after Cert.KernelIdeal.Gen.hostOps0_2 (after Cert.KernelIdeal.Gen.hostOps0_1 (after Cert.KernelIdeal.Gen.hostOps0 Y)) (Proc.devRef .tc Cert.KernelIdeal.main_arg2) = after Cert.ReferenceIdeal.Seg.rNorm (after Cert.ReferenceIdeal.Seg.rWhere (after Cert.ReferenceIdeal.Seg.rIdx Z)) (Proc.devRef .tc Cert.ReferenceIdeal.main_arg2) := by
  obtain ⟨d, a⟩ := segIdx Y Z h1 ⟨h0, h2, h3, h4, h5⟩
  obtain ⟨d', a'⟩ := segWhere _ _ d a
  exact segNorm _ _ d' a'

end Cert.Bridge

end
-- ==== Proof.BridgeLin1.lean ====
/-
  The first dense stage: the kernel's first region, read as one operation computing x · W₁, against the reference's product.
-/
import proofs.«128216_j11991548690782_1_alg».proof.Proof.BridgeBase

set_option maxRecDepth 16384

noncomputable section

namespace Cert.Bridge

open Idealize.ShloMosaic Idealize.ShloMosaic.TcCoe Idealize.ShloMosaic.StableHlo Idealize.ShloMosaic.ValueIdx

set_option maxHeartbeats 2000000 in
/-- ACROSS THE FIRST DENSE STAGE: the kernel's first region, as one operation, and the reference's product. -/
theorem seg0 (Y : KV) (Z : RV) (t : Tie Y Z)
    (hx : Y (Proc.devRef .tc Cert.KernelIdeal.main_arg0) = Z (Proc.devRef .tc Cert.ReferenceIdeal.main_arg0)) (hw : Y (Proc.devRef .tc Cert.KernelIdeal.main_arg2) = Z (Proc.devRef .tc Cert.ReferenceIdeal.main_arg2)) :
    Tie (Cert.KernelIdeal.Fold.op0.result Y) (after Cert.ReferenceIdeal.Seg.rLin1 Z)
    ∧ Cert.KernelIdeal.Fold.op0.result Y (Proc.devRef .tc Cert.KernelIdeal.main_v30) = after Cert.ReferenceIdeal.Seg.rLin1 Z (Proc.devRef .tc Cert.ReferenceIdeal.main_v30) := by
  obtain ⟨t0, t1, t2, t3, t4, t5⟩ := t
  refine ⟨⟨?_, ?_, ?_, ?_, ?_, ?_⟩, ?_⟩
  all_goals simp only [Cert.KernelIdeal.Fold.op0, Cert.ReferenceIdeal.Seg.rLin1]
  all_goals read_fold
  all_goals try simp only [TRef.toBuf, TRef.ofBuf, cast_cast, cast_eq]
  · exact t0
  · exact t1
  · exact t2
  · exact t3
  · exact t4
  · exact t5
  · rw [hx, hw]; rfl

end Cert.Bridge

end
-- ==== Proof.BridgeAgg1.lean ====
/-
  The first aggregation: gather along the sources, scale by the weights, scatter-add to the destinations — the same
  operations on both sides, so equal linear maps aggregate to equal arrays; the kernel also lays the first bias out as a row.
-/
import proofs.«128216_j11991548690782_1_alg».proof.Proof.BridgeBase

set_option maxRecDepth 16384

noncomputable section

namespace Cert.Bridge

open Idealize.ShloMosaic Idealize.ShloMosaic.TcCoe Idealize.ShloMosaic.StableHlo Idealize.ShloMosaic.ValueIdx

set_option maxHeartbeats 2000000 in
/-- ACROSS THE FIRST AGGREGATION: equal linear maps aggregate to equal arrays; the kernel also lays the first bias out as a row. -/
theorem segB (Y : KV) (Z : RV) (t : Tie Y Z) (h : Y (Proc.devRef .tc Cert.KernelIdeal.main_v30) = Z (Proc.devRef .tc Cert.ReferenceIdeal.main_v30)) :
    Tie (after Cert.KernelIdeal.Gen.hostOps1 Y) (after Cert.ReferenceIdeal.Seg.rB Z)
    ∧ after Cert.KernelIdeal.Gen.hostOps1 Y (Proc.devRef .tc Cert.KernelIdeal.main_v43) = after Cert.ReferenceIdeal.Seg.rB Z (Proc.devRef .tc Cert.ReferenceIdeal.main_v43)
    ∧ after Cert.KernelIdeal.Gen.hostOps1 Y (Proc.devRef .tc Cert.KernelIdeal.main_v44)
        = broadcastInDim Cert.ReferenceIdeal.S1x32 ![1] Cert.ReferenceIdeal.Facts₀.bcast_S32_S1x32_1 (after Cert.ReferenceIdeal.Seg.rB Z (Proc.devRef .tc Cert.ReferenceIdeal.main_arg3)) := by
  obtain ⟨t0, t1, t2, t3, t4, t5⟩ := t
  refine ⟨⟨?_, ?_, ?_, ?_, ?_, ?_⟩, ?_, ?_⟩
  all_goals simp only [Cert.KernelIdeal.Gen.hostOps1, Cert.ReferenceIdeal.Seg.rB]
  all_goals read_fold
  all_goals try simp only [TRef.toBuf, TRef.ofBuf, cast_cast, cast_eq]
  · exact t0
  · exact t1
  · exact t2
  · exact t3
  · exact t4
  · exact t5
  · rw [h, t0, t1, t2]; rfl
  · rw [← t3]
    exact rowOfVec (by decide) (Y (Proc.devRef .tc Cert.KernelIdeal.main_arg3)) _ _

end Cert.Bridge

end
-- ==== Proof.BridgeLin2.lean ====
/-
  The second dense stage: the kernel's second region, read as one operation computing max(a + b₁, 0) · W₂, against the
  reference's bias, rectifier and product.
-/
import proofs.«128216_j11991548690782_1_alg».proof.Proof.BridgeBase

set_option maxRecDepth 16384

noncomputable section

namespace Cert.Bridge

open Idealize.ShloMosaic Idealize.ShloMosaic.TcCoe Idealize.ShloMosaic.StableHlo Idealize.ShloMosaic.ValueIdx

set_option maxHeartbeats 2000000 in
/-- ACROSS THE SECOND DENSE STAGE: the kernel's second region, as one operation, and the reference's bias, rectifier and product. -/
theorem seg1 (Y : KV) (Z : RV) (t : Tie Y Z) (h : Y (Proc.devRef .tc Cert.KernelIdeal.main_v43) = Z (Proc.devRef .tc Cert.ReferenceIdeal.main_v43))
    (hb : Y (Proc.devRef .tc Cert.KernelIdeal.main_v44) = broadcastInDim Cert.ReferenceIdeal.S1x32 ![1] Cert.ReferenceIdeal.Facts₀.bcast_S32_S1x32_1 (Z (Proc.devRef .tc Cert.ReferenceIdeal.main_arg3))) :
    Tie (Cert.KernelIdeal.Fold.op1.result Y) (after Cert.ReferenceIdeal.Seg.rAct Z)
    ∧ Cert.KernelIdeal.Fold.op1.result Y (Proc.devRef .tc Cert.KernelIdeal.main_v45) = after Cert.ReferenceIdeal.Seg.rAct Z (Proc.devRef .tc Cert.ReferenceIdeal.main_v48) := by
  obtain ⟨t0, t1, t2, t3, t4, t5⟩ := t
  refine ⟨⟨?_, ?_, ?_, ?_, ?_, ?_⟩, ?_⟩
  all_goals simp only [Cert.KernelIdeal.Fold.op1, Cert.ReferenceIdeal.Seg.rAct]
  all_goals read_fold
  all_goals try simp only [TRef.toBuf, TRef.ofBuf, cast_cast, cast_eq]
  · exact t0
  · exact t1
  · exact t2
  · exact t3
  · exact t4
  · exact t5
  · rw [h, hb, t4]; rfl

end Cert.Bridge

end
-- ==== Proof.BridgeAgg2.lean ====
/-
  The second aggregation: the same gather, scaling and scatter-add on both sides; the kernel also lays the second bias out as a row.
-/
import proofs.«128216_j11991548690782_1_alg».proof.Proof.BridgeBase

set_option maxRecDepth 16384

noncomputable section

namespace Cert.Bridge

open Idealize.ShloMosaic Idealize.ShloMosaic.TcCoe Idealize.ShloMosaic.StableHlo Idealize.ShloMosaic.ValueIdx

set_option maxHeartbeats 2000000 in
/-- ACROSS THE SECOND AGGREGATION. -/
theorem segC (Y : KV) (Z : RV) (t : Tie Y Z) (h : Y (Proc.devRef .tc Cert.KernelIdeal.main_v45) = Z (Proc.devRef .tc Cert.ReferenceIdeal.main_v48)) :
    Tie (after Cert.KernelIdeal.Gen.hostOps2 Y) (after Cert.ReferenceIdeal.Seg.rC Z)
    ∧ after Cert.KernelIdeal.Gen.hostOps2 Y (Proc.devRef .tc Cert.KernelIdeal.main_v58) = after Cert.ReferenceIdeal.Seg.rC Z (Proc.devRef .tc Cert.ReferenceIdeal.main_v61)
    ∧ after Cert.KernelIdeal.Gen.hostOps2 Y (Proc.devRef .tc Cert.KernelIdeal.main_v59)
        = broadcastInDim Cert.ReferenceIdeal.S1x2 ![1] Cert.ReferenceIdeal.Facts₀.bcast_S2_S1x2_1 (after Cert.ReferenceIdeal.Seg.rC Z (Proc.devRef .tc Cert.ReferenceIdeal.main_arg5)) := by
  obtain ⟨t0, t1, t2, t3, t4, t5⟩ := t
  refine ⟨⟨?_, ?_, ?_, ?_, ?_, ?_⟩, ?_, ?_⟩
  all_goals simp only [Cert.KernelIdeal.Gen.hostOps2, Cert.ReferenceIdeal.Seg.rC]
  all_goals read_fold
  all_goals try simp only [TRef.toBuf, TRef.ofBuf, cast_cast, cast_eq]
  · exact t0
  · exact t1
  · exact t2
  · exact t3
  · exact t4
  · exact t5
  · rw [h, t0, t1, t2]; rfl
  · rw [← t5]
    exact rowOfVec (by decide) (Y (Proc.devRef .tc Cert.KernelIdeal.main_arg5)) _ _

end Cert.Bridge

end
-- ==== Proof.BridgeOut.lean ====
/-
  The output stage: the kernel's third region, read as one operation computing the biased row-wise log-softmax, against the
  reference's bias and log-softmax.
-/
import proofs.«128216_j11991548690782_1_alg».proof.Proof.BridgeBase

set_option maxRecDepth 16384

noncomputable section

namespace Cert.Bridge

open Idealize.ShloMosaic Idealize.ShloMosaic.TcCoe Idealize.ShloMosaic.StableHlo Idealize.ShloMosaic.ValueIdx

set_option maxHeartbeats 2000000 in
/-- ACROSS THE OUTPUT STAGE: the kernel's third region, as one operation, and the reference's bias and log-softmax. -/
theorem seg2 (Y : KV) (Z : RV) (h : Y (Proc.devRef .tc Cert.KernelIdeal.main_v58) = Z (Proc.devRef .tc Cert.ReferenceIdeal.main_v61))
    (hb : Y (Proc.devRef .tc Cert.KernelIdeal.main_v59) = broadcastInDim Cert.ReferenceIdeal.S1x2 ![1] Cert.ReferenceIdeal.Facts₀.bcast_S2_S1x2_1 (Z (Proc.devRef .tc Cert.ReferenceIdeal.main_arg5))) :
    Cert.KernelIdeal.Fold.op2.result Y (Proc.devRef .tc Cert.KernelIdeal.main_v60) = after Cert.ReferenceIdeal.Seg.rOut Z (Proc.devRef .tc Cert.ReferenceIdeal.main_v65) := by
  simp only [Cert.KernelIdeal.Fold.op2, Cert.ReferenceIdeal.Seg.rOut]
  read_fold
  simp only [TRef.toBuf, TRef.ofBuf, cast_cast, cast_eq]
  rw [h, hb]; rfl

end Cert.Bridge

end
-- ==== Proof.lean ====
/-
  A two-layer graph convolution network over 100000 nodes and 3.2 million edges (with a self loop added at every node), ending
  in a row-wise log-softmax over two classes: the kernel's program against the plain reference.

  Both programs build the same edge lists and the same symmetric normalisation weights with the same host operations, and
  both aggregate each layer by the same gather along the sources, scaling, and scatter-add to the destinations. They differ
  only in the three dense stages. The kernel computes each in a pallas_call over ten row blocks of 10000 nodes:
    * x · W₁, by a block matrix product into zero with the operands read as bf16;
    * max(a + b₁, 0) · W₂, likewise, the bias a 1×32 row;
    * (a + b₂) − max − log Σ exp(· − max) row by row, with lane reductions over the two classes.
  The reference computes them on whole arrays with a `dot_general`, a broadcast add and a maximum with zero, and `reduce`s
  over the class axis. Over the extended reals a change of float format is the identity, a matrix product into zero and a
  `dot_general` are the same finite sums, and a row of either product, rectifier or log-softmax depends on the same row of
  its operand only; so each pallas_call leaves in its result array exactly the reference's whole-array function of its input
  arrays (modules Region0, Region1, Region2), the kernel's run is a fold of operations like the reference's (KernelFold), and the
  two folds agree stretch by stretch (the Bridge modules). No algebraic law beyond this re-tiling is used: the precondition is never opened.

  The three frames are the generated ones (the reference's is its run with the result dropped); nothing was rewritten by the
  idealization, so `preserves` asks nothing.
-/
import proofs.«128216_j11991548690782_1_alg».proof.Defs
import proofs.«128216_j11991548690782_1_alg».proof.Proof.Gen.Kernel
import proofs.«128216_j11991548690782_1_alg».proof.Proof.Gen.Kernel.Frame
import proofs.«128216_j11991548690782_1_alg».proof.Proof.Gen.KernelIdeal
import proofs.«128216_j11991548690782_1_alg».proof.Proof.Gen.KernelIdeal.Frame
import proofs.«128216_j11991548690782_1_alg».proof.Proof.Gen.ReferenceIdeal
import proofs.«128216_j11991548690782_1_alg».proof.Proof.Gen.Pre_finite_inputs
import proofs.«128216_j11991548690782_1_alg».proof.Proof.KernelRun
import proofs.«128216_j11991548690782_1_alg».proof.Proof.KernelFold
import proofs.«128216_j11991548690782_1_alg».proof.Proof.RefRun
import proofs.«128216_j11991548690782_1_alg».proof.Proof.RefSegments
import proofs.«128216_j11991548690782_1_alg».proof.Proof.BridgeIdx
import proofs.«128216_j11991548690782_1_alg».proof.Proof.BridgeLin1
import proofs.«128216_j11991548690782_1_alg».proof.Proof.BridgeAgg1
import proofs.«128216_j11991548690782_1_alg».proof.Proof.BridgeLin2
import proofs.«128216_j11991548690782_1_alg».proof.Proof.BridgeAgg2
import proofs.«128216_j11991548690782_1_alg».proof.Proof.BridgeOut
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- From memories that agree on the six arguments, the reference's fold of its 98 operations leaves in its result buffer
    what the kernel's fold of host stretches and regions leaves in the kernel's: the stretches' lemmas chained. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : launchContents m' c (Proc.devRef .tc Cert.ReferenceIdeal.main_arg0) = Cert.KernelIdeal.Gen.W0 m ρ c (Proc.devRef .tc Cert.KernelIdeal.main_arg0))
    (h1 : launchContents m' c (Proc.devRef .tc Cert.ReferenceIdeal.main_arg1) = Cert.KernelIdeal.Gen.W0 m ρ c (Proc.devRef .tc Cert.KernelIdeal.main_arg1))
    (h2 : launchContents m' c (Proc.devRef .tc Cert.ReferenceIdeal.main_arg2) = Cert.KernelIdeal.Gen.W0 m ρ c (Proc.devRef .tc Cert.KernelIdeal.main_arg2))
    (h3 : launchContents m' c (Proc.devRef .tc Cert.ReferenceIdeal.main_arg3) = Cert.KernelIdeal.Gen.W0 m ρ c (Proc.devRef .tc Cert.KernelIdeal.main_arg3))
    (h4 : launchContents m' c (Proc.devRef .tc Cert.ReferenceIdeal.main_arg4) = Cert.KernelIdeal.Gen.W0 m ρ c (Proc.devRef .tc Cert.KernelIdeal.main_arg4))
    (h5 : launchContents m' c (Proc.devRef .tc Cert.ReferenceIdeal.main_arg5) = Cert.KernelIdeal.Gen.W0 m ρ c (Proc.devRef .tc Cert.KernelIdeal.main_arg5)) :
    after (Cert.ReferenceIdeal.Value.ops (F := Ideal)) (launchContents m' c) (Proc.devRef .tc Cert.ReferenceIdeal.main_v65)
      = Cert.KernelIdeal.Gen.W8 m ρ c (Proc.devRef .tc Cert.KernelIdeal.main_v60) := by
  rw [Cert.ReferenceIdeal.Seg.after_ops, Cert.KernelIdeal.Fold.W8_fold]
  obtain ⟨tA, hx, hw⟩ := Cert.Bridge.segA (Cert.KernelIdeal.Gen.W0 m ρ c) (launchContents m' c) h0.symm h1.symm h2.symm h3.symm h4.symm h5.symm
  obtain ⟨t0, h30⟩ := Cert.Bridge.seg0 _ _ tA hx hw
  obtain ⟨tB, h43, h44⟩ := Cert.Bridge.segB _ _ t0 h30
  obtain ⟨t1, h45⟩ := Cert.Bridge.seg1 _ _ tB h43 h44
  obtain ⟨tC, h58, h59⟩ := Cert.Bridge.segC _ _ t1 h45
  exact (Cert.Bridge.seg2 _ _ h58 h59).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end, the kernel's result array at what its fold leaves there and the reference's at
    the same, the arguments unchanged. -/
theorem algebraic : Cert.algebraic_KernelIdeal_ReferenceIdeal := by
  intro m ρ m' ρ' _ hagree
  refine ⟨fun c => Cert.KernelIdeal.Gen.W8 m ρ c (Proc.devRef .tc Cert.KernelIdeal.main_v60), Cert.KernelIdeal.RunValue.run_named (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m ρ m' c (hagree c).1 (hagree c).2.1 (hagree c).2.2.1 (hagree c).2.2.2.1 (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
